-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3x64 : Shape := ⟨3, ![50000, 3, 64]⟩
abbrev S800000x3x3 : Shape := ⟨3, ![800000, 3, 3]⟩
abbrev S64 : Shape := ⟨1, ![64]⟩
abbrev S64x128 : Shape := ⟨2, ![64, 128]⟩
abbrev S128 : Shape := ⟨1, ![128]⟩
abbrev S128x64 : Shape := ⟨2, ![128, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3x64 : S_.BroadcastsInDim S50000x3x64 (![] : Fin 0 → Fin S50000x3x64.rank)
  reducesTo_S50000x3x64_S_d0_1_2 : S50000x3x64.ReducesTo [0, 1, 2] S_
  bcast_S_S800000x3x3 : S_.BroadcastsInDim S800000x3x3 (![] : Fin 0 → Fin S800000x3x3.rank)
  reducesTo_S800000x3x3_S_d0_1_2 : S800000x3x3.ReducesTo [0, 1, 2] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S128x64 .f32) (main_arg13 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg12
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S128 .f32) (main_arg8 : FVec F S128x64 .f32) (main_arg9 : FVec F S64 .f32) (main_arg10 : FVec F S64x128 .f32) (main_arg11 : FVec F S128 .f32) (main_arg12 : FVec F S128x64 .f32) (main_arg13 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_v48 main_v49 main_v50

def fn_part1 {F : FTy → Type} [FloatOps F] (main_arg4 : FVec F S64 .f32) (main_arg5 : FVec F S64 .f32) (main_arg6 : FVec F S64x128 .f32) (main_arg7 : FVec F S128 .f32) (main_arg8 : FVec F S128x64 .f32) (main_arg9 : FVec F S64 .f32) (main_arg10 : FVec F S64x128 .f32) (main_arg11 : FVec F S128 .f32) (main_arg12 : FVec F S128x64 .f32) (main_arg13 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S50000x64 .f32) (main_arg1 : FVec F S50000x3x64 .f32) (main_arg2 : FVec F S800000x3x3 .f32) (main_arg3 : FVec F S64 .f32) (main_arg4 : FVec F S64 .f32) (main_arg5 : FVec F S64 .f32) (main_arg6 : FVec F S64x128 .f32) (main_arg7 : FVec F S128 .f32) (main_arg8 : FVec F S128x64 .f32) (main_arg9 : FVec F S64 .f32) (main_arg10 : FVec F S64x128 .f32) (main_arg11 : FVec F S128 .f32) (main_arg12 : FVec F S128x64 .f32) (main_arg13 : FVec F S64 .f32) (main_arg14 : IVec S800000 32) (main_arg15 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3x64 .f32 := Host.absf main_arg1
  let main_cst_0 : FVec F S_ .f32 := constant S_ .f32 0x7F800000#32
  let main_v5 : FVec F S50000x3x64 .f32 := broadcastInDim S50000x3x64 ![] bcast_S_S50000x3x64 main_cst_0
  let main_v6 : IVec S50000x3x64 1 := cmpf .olt main_v4 main_v5
  let main_c_1 : IVec S_ 1 := constantI S_ 1 1#1
  let main_v7 : IVec S_ 1 := (fun x v => Host.reduce IntOp.andi x v reducesTo_S50000x3x64_S_d0_1_2 h_S_) main_v6 main_c_1
  let main_v8 : IVec S_ 1 := andi main_v3 main_v7
  let main_v9 : FVec F S800000x3x3 .f32 := Host.absf main_arg2
  let main_cst_2 : FVec F S_ .f32 := constant S_ .f32 0x7F800000#32
  let main_v10 : FVec F S800000x3x3 .f32 := broadcastInDim S800000x3x3 ![] bcast_S_S800000x3x3 main_cst_2
  let main_v11 : IVec S800000x3x3 1 := cmpf .olt main_v9 main_v10
  let main_c_3 : IVec S_ 1 := constantI S_ 1 1#1
  let main_v12 : IVec S_ 1 := (fun x v => Host.reduce IntOp.andi x v reducesTo_S800000x3x3_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S50000x64 : Shape := ⟨2, ![50000, 64]⟩
abbrev S50000x3x64 : Shape := ⟨3, ![50000, 3, 64]⟩
abbrev S800000x3x3 : Shape := ⟨3, ![800000, 3, 3]⟩
abbrev S64 : Shape := ⟨1, ![64]⟩
abbrev S64x128 : Shape := ⟨2, ![64, 128]⟩
abbrev S128 : Shape := ⟨1, ![128]⟩
abbrev S128x64 : Shape := ⟨2, ![128, 64]⟩
abbrev S800000 : Shape := ⟨1, ![800000]⟩
abbrev S1000x64 : Shape := ⟨2, ![1000, 64]⟩
abbrev S1000x3x64 : Shape := ⟨3, ![1000, 3, 64]⟩
abbrev S1000 : Shape := ⟨1, ![1000]⟩
abbrev S1000x1 : Shape := ⟨2, ![1000, 1]⟩
abbrev S1x64 : Shape := ⟨2, ![1, 64]⟩
abbrev S1000x128 : Shape := ⟨2, ![1000, 128]⟩
abbrev S1x128 : Shape := ⟨2, ![1, 128]⟩
abbrev S1x1x64 : Shape := ⟨3, ![1, 1, 64]⟩
abbrev S_ : Shape := ⟨0, ![]⟩
abbrev S800000x1 : Shape := ⟨2, ![800000, 1]⟩
abbrev S800000x64 : Shape := ⟨2, ![800000, 64]⟩
abbrev S800000x3x64 : Shape := ⟨3, ![800000, 3, 64]⟩
abbrev S800000x9 : Shape := ⟨2, ![800000, 9]⟩
abbrev S1280x64 : Shape := ⟨2, ![1280, 64]⟩
abbrev S1280x3x64 : Shape := ⟨3, ![1280, 3, 64]⟩
abbrev S1280x9 : Shape := ⟨2, ![1280, 9]⟩
abbrev S1280x1x64 : Shape := ⟨3, ![1280, 1, 64]⟩
abbrev S1280x1 : Shape := ⟨2, ![1280, 1]⟩

abbrev nBuf : Space → Nat
  | .hbm => 52
  | .vmem => 31
  | .smem => 0
  | _ => 0

abbrev bufTy : (tb : Table) → Fin (tcTables nBuf tb) → BufTy
  | .hbm, ⟨0, _⟩ => ⟨S50000x64, .f32⟩
  | .hbm, ⟨1, _⟩ => ⟨S50000x3x64, .f32⟩
  | .hbm, ⟨2, _⟩ => ⟨S800000x3x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S800000, .i32⟩
  | .hbm, ⟨15, _⟩ => ⟨S800000, .i32⟩
  | .hbm, ⟨16, _⟩ => ⟨S50000x64, .f32⟩
  | .hbm, ⟨17, _⟩ => ⟨S50000x64, .f32⟩
  | .hbm, ⟨18, _⟩ => ⟨S50000x3x64, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x3x64, .f32⟩
  | .hbm, ⟨46, _⟩ => ⟨S800000x9, .f32⟩
  | .hbm, ⟨47, _⟩ => ⟨S800000x3x64, .f32⟩
  | .hbm, ⟨48, _⟩ => ⟨S_, .f32⟩
  | .hbm, ⟨49, _⟩ => ⟨S50000x3x64, .f32⟩
  | .hbm, ⟨50, _⟩ => ⟨S800000x1, .i32⟩
  | .hbm, ⟨51, _⟩ => ⟨S50000x3x64, .f32⟩
  | .local _ .vmem, ⟨0, _⟩ => ⟨S1000x64, .f32⟩
  | .local _ .vmem, ⟨1, _⟩ => ⟨S1000x64, .f32⟩
  | .local _ .vmem, ⟨2, _⟩ => ⟨S1000x3x64, .f32⟩
  | .local _ .vmem, ⟨3, _⟩ => ⟨S1000x3x64, .f32⟩
  | .local _ .vmem, ⟨4, _⟩ => ⟨S64, .f32⟩
  | .local _ .vmem, ⟨5, _⟩ => ⟨S64, .f32⟩
  | .local _ .vmem, ⟨6, _⟩ => ⟨S64, .f32⟩
  | .local _ .vmem, ⟨7, _⟩ => ⟨S64x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S64x128, .f32⟩
  | .local _ .vmem, ⟨12, _⟩ => ⟨S128, .f32⟩
  | .local _ .vmem, ⟨13, _⟩ => ⟨S128x64, .f32⟩
  | .local _ .vmem, ⟨14, _⟩ => ⟨S64, .f32⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | .local _ .vmem, ⟨18, _⟩ => ⟨S1000x64, .f32⟩
  | .local _ .vmem, ⟨19, _⟩ => ⟨S1000x3x64, .f32⟩
  | .local _ .vmem, ⟨20, _⟩ => ⟨S1000x3x64, .f32⟩
  | .local _ .vmem, ⟨21, _⟩ => ⟨S1280x64, .f32⟩
  | .local _ .vmem, ⟨22, _⟩ => ⟨S1280x64, .f32⟩
  | .local _ .vmem, ⟨23, _⟩ => ⟨S1280x64, .f32⟩
  | .local _ .vmem, ⟨24, _⟩ => ⟨S1280x64, .f32⟩
  | .local _ .vmem, ⟨25, _⟩ => ⟨S1280x3x64, .f32⟩
  | .local _ .vmem, ⟨26, _⟩ => ⟨S1280x3x64, .f32⟩
  | .local _ .vmem, ⟨27, _⟩ => ⟨S1280x9, .f32⟩
  | .local _ .vmem, ⟨28, _⟩ => ⟨S1280x9, .f32⟩
  | .local _ .vmem, ⟨29, _⟩ => ⟨S1280x3x64, .f32⟩
  | .local _ .vmem, ⟨30, _⟩ => ⟨S1280x3x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c_1 : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem3_1 : DmaSem sig := 28
abbrev cc1_sem4_0 : DmaSem sig := 29
abbrev cc1_sem4_1 : DmaSem sig := 30

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1000x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1000x3x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨1, ![625], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1280x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1280x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x3x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1280x9 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1280x3x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1000x64_S1000x64_0_0 : ∀ a, (![0, 0] : Fin 2 → Nat) a + S1000x64.size a ≤ S1000x64.size a
  h_S1000x64 : 0 < S1000x64.numel
  reduces_S1000x64_S1000 : S1000x64.Reduces [1] S1000
  shapeCasts_S1000_S1000x1 : S1000.ShapeCasts S1000x1
  broadcasts_S1000x1_S1000x64 : S1000x1.Broadcasts S1000x64
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S1000x3x64_S1000x3x64_0_0_0 : ∀ a, (![0, 0, 0] : Fin 3 → Nat) a + S1000x3x64.size a ≤ S1000x3x64.size a
  h_S1000x3x64 : 0 < S1000x3x64.numel
  shapeCasts_S64_S1x1x64 : S64.ShapeCasts S1x1x64
  broadcasts_S1x1x64_S1000x3x64 : S1x1x64.Broadcasts S1000x3x64
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x3x3_S800000x9 : S800000x3x3.ShapeCasts S800000x9
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  inb_S1280x3x64_S1280x1x64_0_0_0 : ∀ a, (![0, 0, 0] : Fin 3 → Nat) a + S1280x1x64.size a ≤ S1280x3x64.size a
  h_S1280x1x64 : 0 < S1280x1x64.numel
  shapeCasts_S1280x1x64_S1280x64 : S1280x1x64.ShapeCasts S1280x64
  inb_S1280x3x64_S1280x1x64_0_1_0 : ∀ a, (![0, 1, 0] : Fin 3 → Nat) a + S1280x1x64.size a ≤ S1280x3x64.size a
  inb_S1280x3x64_S1280x1x64_0_2_0 : ∀ a, (![0, 2, 0] : Fin 3 → Nat) a + S1280x1x64.size a ≤ S1280x3x64.size a
  inb_S1280x9_S1280x9_0_0 : ∀ a, (![0, 0] : Fin 2 → Nat) a + S1280x9.size a ≤ S1280x9.size a
  h_S1280x9 : 0 < S1280x9.numel
  shapeCasts_S1280x9_S1280x9 : S1280x9.ShapeCasts S1280x9
  slices_S1280x9_o0_0_S1280x1 : S1280x9.Slices ![0, 0] S1280x1
  slices_S1280x9_o0_1_S1280x1 : S1280x9.Slices ![0, 1] S1280x1
  slices_S1280x9_o0_2_S1280x1 : S1280x9.Slices ![0, 2] S1280x1
  broadcasts_S1280x1_S1280x64 : S1280x1.Broadcasts S1280x64
  shapeCasts_S1280x64_S1280x1x64 : S1280x64.ShapeCasts S1280x1x64
  slices_S1280x9_o0_3_S1280x1 : S1280x9.Slices ![0, 3] S1280x1
  slices_S1280x9_o0_4_S1280x1 : S1280x9.Slices ![0, 4] S1280x1
  slices_S1280x9_o0_5_S1280x1 : S1280x9.Slices ![0, 5] S1280x1
  slices_S1280x9_o0_6_S1280x1 : S1280x9.Slices ![0, 6] S1280x1
  slices_S1280x9_o0_7_S1280x1 : S1280x9.Slices ![0, 7] S1280x1
  slices_S1280x9_o0_8_S1280x1 : S1280x9.Slices ![0, 8] S1280x1
  bcast_S_S50000x3x64 : S_.BroadcastsInDim S50000x3x64 (![] : Fin 0 → Fin S50000x3x64.rank)
  dot_S1000x64_S64x128_S1000x128_1_0_0_1_n_n_wf : DotDims.WF S1000x64 S64x128 S1000x128 [1] [0] [0] [1] [] []
  dot_S1000x128_S128x64_S1000x64_1_0_0_1_n_n_wf : DotDims.WF S1000x128 S128x64 S1000x64 [1] [0] [0] [1] [] []
  gather_S50000x64_S800000x1_S800000x64_1_0_n_n_0_1_164_wf : GatherDims.WF S50000x64 S800000x1 S800000x64 [1] [0] [] [0] [] 1 ![1, 64]
  gather_S50000x3x64_S800000x1_S800000x3x64_12_0_n_n_0_1_1364_wf : GatherDims.WF S50000x3x64 S800000x1 S800000x3x64 [1, 2] [0] [] [0] [] 1 ![1, 3, 64]
  scatter_S50000x3x64_S800000x1_S800000x3x64_12_0_0_1_wf : ScatterDims.WF S50000x3x64 S800000x1 S800000x3x64 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S50000x64.size a
  hwx0_0 : ∀ i : grid0.Coords, EltTy.bits .f32 = 32 ∨ (Rect.block (s := S50000x64) S1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x3x64.size a ≤ S50000x3x64.size a
  hwx0_1 : ∀ i : grid0.Coords, EltTy.bits .f32 = 32 ∨ (Rect.block (s := S50000x3x64) S1000x3x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1000x64.size a ≤ S50000x64.size a
  hwx0_13 : ∀ i : grid0.Coords, EltTy.bits .f32 = 32 ∨ (Rect.block (s := S50000x64) S1000x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1000x64.size a ≤ S50000x64.size a
  hwx0_14 : ∀ i : grid0.Coords, EltTy.bits .f32 = 32 ∨ (Rect.block (s := S50000x64) S1000x64.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1000x3x64.size a ≤ S50000x3x64.size a
  hwx0_15 : ∀ i : grid0.Coords, EltTy.bits .f32 = 32 ∨ (Rect.block (s := S50000x3x64) S1000x3x64.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x64.size a ≤ S800000x64.size a
  hwx1_0 : ∀ i : grid1.Coords, EltTy.bits .f32 = 32 ∨ (Rect.block (s := S800000x64) S1280x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x64.size a ≤ S800000x64.size a
  hwx1_1 : ∀ i : grid1.Coords, EltTy.bits .f32 = 32 ∨ (Rect.block (s := S800000x64) S1280x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x3x64.size a ≤ S800000x3x64.size a
  hwx1_2 : ∀ i : grid1.Coords, EltTy.bits .f32 = 32 ∨ (Rect.block (s := S800000x3x64) S1280x3x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x9.size a ≤ S800000x9.size a
  hwx1_3 : ∀ i : grid1.Coords, EltTy.bits .f32 = 32 ∨ (Rect.block (s := S800000x9) S1280x9.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1280x3x64.size a ≤ S800000x3x64.size a
  hwx1_4 : ∀ i : grid1.Coords, EltTy.bits .f32 = 32 ∨ (Rect.block (s := S800000x3x64) S1280x3x64.size (cc1_transform_4 i) (hinb1_4 i)).WholeWords (EltTy.packing .f32)

variable [Facts₀]

def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3x64_S800000x1_S800000x3x64_12_0_n_n_0_1_1364 : GatherDims S50000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S50000x3x64_S800000x1_S800000x3x64_12_0_n_n_0_1_1364_wf
def scatter_S50000x3x64_S800000x1_S800000x3x64_12_0_0_1 : ScatterDims S50000x3x64 S800000x1 S800000x3x64 where
  updateWindowDims := [1, 2]
  insertedWindowDims := [0]
  scatterDimsToOperandDims := [0]
  indexVectorDim := 1
  wf := scatter_S50000x3x64_S800000x1_S800000x3x64_12_0_0_1_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x3x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0_0) S1000x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_1) S1000x64.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_2) S1000x3x64.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v7) S1280x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1280x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1280x3x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1280x9.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1280x3x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3x64 : Shape := ⟨3, ![50000, 3, 64]⟩
abbrev S800000x3x3 : Shape := ⟨3, ![800000, 3, 3]⟩
abbrev S64 : Shape := ⟨1, ![64]⟩
abbrev S64x128 : Shape := ⟨2, ![64, 128]⟩
abbrev S128 : Shape := ⟨1, ![128]⟩
abbrev S128x64 : Shape := ⟨2, ![128, 64]⟩
abbrev S800000 : Shape := ⟨1, ![800000]⟩
abbrev S_ : Shape := ⟨0, ![]⟩
abbrev S50000 : Shape := ⟨1, ![50000]⟩
abbrev S50000x1 : Shape := ⟨2, ![50000, 1]⟩
abbrev S1x64 : Shape := ⟨2, ![1, 64]⟩
abbrev S1x1x64 : Shape := ⟨3, ![1, 1, 64]⟩
abbrev S50000x128 : Shape := ⟨2, ![50000, 128]⟩
abbrev S1x128 : Shape := ⟨2, ![1, 128]⟩
abbrev S800000x1 : Shape := ⟨2, ![800000, 1]⟩
abbrev S800000x64 : Shape := ⟨2, ![800000, 64]⟩
abbrev S800000x3x64 : Shape := ⟨3, ![800000, 3, 64]⟩
abbrev S800000x1x64 : Shape := ⟨3, ![800000, 1, 64]⟩

abbrev nBuf : Space → Nat
  | .hbm => 120
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3x64, .f32⟩
  | .hbm, ⟨2, _⟩ => ⟨S800000x3x3, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S800000, .i32⟩
  | .hbm, ⟨15, _⟩ => ⟨S800000, .i32⟩
  | .hbm, ⟨16, _⟩ => ⟨S_, .f32⟩
  | .hbm, ⟨17, _⟩ => ⟨S50000, .f32⟩
  | .hbm, ⟨18, _⟩ => ⟨S50000x1, .f32⟩
  | .hbm, ⟨19, _⟩ => ⟨S_, .f32⟩
  | .hbm, ⟨20, _⟩ => ⟨S50000x1, .f32⟩
  | .hbm, ⟨21, _⟩ => ⟨S50000x1, .f32⟩
  | .hbm, ⟨22, _⟩ => ⟨S50000x64, .f32⟩
  | .hbm, ⟨23, _⟩ => ⟨S50000x64, .f32⟩
  | .hbm, ⟨24, _⟩ => ⟨S50000x64, .f32⟩
  | .hbm, ⟨25, _⟩ => ⟨S_, .f32⟩
  | .hbm, ⟨26, _⟩ => ⟨S50000, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .f32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S1x1x64, .f32⟩
  | .hbm, ⟨46, _⟩ => ⟨S50000x3x64, .f32⟩
  | .hbm, ⟨47, _⟩ => ⟨S50000x3x64, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x64, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x64, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x3x64, .f32⟩
  | .hbm, ⟨109, _⟩ => ⟨S800000x1x64, .f32⟩
  | .hbm, ⟨110, _⟩ => ⟨S800000x3x64, .f32⟩
  | .hbm, ⟨111, _⟩ => ⟨S800000x3x64, .f32⟩
  | .hbm, ⟨112, _⟩ => ⟨S800000x3x64, .f32⟩
  | .hbm, ⟨113, _⟩ => ⟨S800000x1x64, .f32⟩
  | .hbm, ⟨114, _⟩ => ⟨S800000x3x64, .f32⟩
  | .hbm, ⟨115, _⟩ => ⟨S800000x3x64, .f32⟩
  | .hbm, ⟨116, _⟩ => ⟨S_, .f32⟩
  | .hbm, ⟨117, _⟩ => ⟨S50000x3x64, .f32⟩
  | .hbm, ⟨118, _⟩ => ⟨S800000x1, .i32⟩
  | .hbm, ⟨119, _⟩ => ⟨S50000x3x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c : Ref sig .tc := ⟨.hbm, 82, rfl⟩
abbrev main_v45 : Ref sig .tc := ⟨.hbm, 83, rfl⟩
abbrev main_v46 : Ref sig .tc := ⟨.hbm, 84, rfl⟩
abbrev main_c_4 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_c_5 : Ref sig .tc := ⟨.hbm, 91, rfl⟩
abbrev main_v52 : Ref sig .tc := ⟨.hbm, 92, rfl⟩
abbrev main_v53 : Ref sig .tc := ⟨.hbm, 93, rfl⟩
abbrev main_c_6 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_7 : Ref sig .tc := ⟨.hbm, 100, rfl⟩
abbrev main_v59 : Ref sig .tc := ⟨.hbm, 101, rfl⟩
abbrev main_v60 : Ref sig .tc := ⟨.hbm, 102, rfl⟩
abbrev main_c_8 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_9 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩

abbrev nD : Nat := 1
abbrev τ : Topo := Topo.v7x

variable {F : FTy → Type} [FloatOps F]

class Facts₀ : Prop where
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S64_S1x1x64_2 : S64.BroadcastsInDim S1x1x64 (![2] : Fin 1 → Fin S1x1x64.rank)
  bcast_S1x1x64_S50000x3x64_0_1_2 : S1x1x64.BroadcastsInDim S50000x3x64 (![0, 1, 2] : Fin 3 → Fin S50000x3x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x64_S800000x1x64_0_2 : S800000x64.BroadcastsInDim S800000x1x64 (![0, 2] : Fin 2 → Fin S800000x1x64.rank)
  bcast_S800000x1x64_S800000x3x64_0_1_2 : S800000x1x64.BroadcastsInDim S800000x3x64 (![0, 1, 2] : Fin 3 → Fin S800000x3x64.rank)
  bcast_S_S50000x3x64 : S_.BroadcastsInDim S50000x3x64 (![] : Fin 0 → Fin S50000x3x64.rank)
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  gather_S50000x3x64_S800000x1_S800000x3x64_12_0_n_n_0_1_1364_wf : GatherDims.WF S50000x3x64 S800000x1 S800000x3x64 [1, 2] [0] [] [0] [] 1 ![1, 3, 64]
  dot_S800000x3x3_S800000x3x64_S800000x3x64_2_1_1_2_0_0_wf : DotDims.WF S800000x3x3 S800000x3x64 S800000x3x64 [2] [1] [1] [2] [0] [0]
  scatter_S50000x3x64_S800000x1_S800000x3x64_12_0_0_1_wf : ScatterDims.WF S50000x3x64 S800000x1 S800000x3x64 [1, 2] [0] [0] 1

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3x64_S800000x1_S800000x3x64_12_0_n_n_0_1_1364 : GatherDims S50000x3x64 S800000x1 S800000x3x64 where
  offsetDims := [1, 2]
  collapsedSliceDims := [0]
  operandBatchingDims := []
  startIndicesBatchingDims := []
  startIndexMap := [0]
  indexVectorDim := 1
  sliceSizes := ![1, 3, 64]
  wf := gather_S50000x3x64_S800000x1_S800000x3x64_12_0_n_n_0_1_1364_wf
def dot_S800000x3x3_S800000x3x64_S800000x3x64_2_1_1_2_0_0 : DotDims S800000x3x3 S800000x3x64 S800000x3x64 where
  lhsContracting := [2]
  rhsContracting := [1]
  lhsNonContracting := [1]
  rhsNonContracting := [2]
  lhsBatch := [0]
  rhsBatch := [0]
  wf := dot_S800000x3x3_S800000x3x64_S800000x3x64_2_1_1_2_0_0_wf
def scatter_S50000x3x64_S800000x1_S800000x3x64_12_0_0_1 : ScatterDims S50000x3x64 S800000x1 S800000x3x64 where
  updateWindowDims := [1, 2]
  insertedWindowDims := [0]
  scatterDimsToOperandDims := [0]
  indexVectorDim := 1
  wf := scatter_S50000x3x64_S800000x1_S800000x3x64_12_0_0_1_wf

class Facts : Prop extends Facts₀ where

variable [Facts]
-- ==== Proof.Spec.lean ====
/-
  The mathematics both programs compute, one row (one node, or one edge) at a time, on the extended reals.

  A node's feature row `x : Fin 64 → EReal` is layer-normalised over its 64 channels: with `μ = (∑ x) / 64` and
  `σ² = (∑ (x - μ)²) / 64`, channel `j` becomes `(x j - μ) · (σ² + ε)^(-1/2) · scale j + bias j`. Two dense layers
  with a `silu` between them (`silu a = a · logistic a`) then give the row of `p` (and, with the other weights, of `q`).
  An edge's message in direction `i` and channel `c` is `p · ((m₀ · (q · v₀) + m₁ · (q · v₁)) + m₂ · (q · v₂))`, where
  `m` is row `i` of the edge's 3×3 matrix and `v` the sender's three vectors at channel `c`.
  No program is imported here: these are plain functions, which the kernel's blocks and the reference's arrays are
  each shown to compute.
-/
import Idealize.ShloMosaic.PureOps.Ideal
import Idealize.ShloMosaic.Lib.ValueIdx

noncomputable section

open scoped BigOperators

namespace Cert.Spec

open Idealize.ShloMosaic

/-- The mean of 64 extended reals: their sum divided by the value of the word of `64.0`. -/
def mean64 (x : Fin 64 → EReal) : EReal :=
  Ideal.div (∑ j : Fin 64, x j) (Ideal.ofBits .f32 0x42800000#32)

/-- A row centred at its mean. -/
def centred (x : Fin 64 → EReal) : Fin 64 → EReal := fun j => x j - mean64 x

/-- The reciprocal standard deviation of a row: `(variance + ε)^(-1/2)`, the variance the mean of the centred squares,
    `ε` the value of the word of `1e-5`. -/
def rstd (x : Fin 64 → EReal) : EReal :=
  Ideal.rsqrt (mean64 (fun k => centred x k * centred x k) + Ideal.ofBits .f32 0x3727C5AC#32)

/-- Layer normalisation of one row with a per-channel scale and bias. -/
def lnRow (x sc bi : Fin 64 → EReal) : Fin 64 → EReal := fun j =>
  centred x j * rstd x * sc j + bi j

/-- `silu a = a · logistic a`. -/
def silu (a : EReal) : EReal := a * Ideal.logistic a

/-- A dense layer on one row: `(∑ j, x j · w j c) + b c`. -/
def dense {n k : Nat} (x : Fin n → EReal) (w : Fin n → Fin k → EReal) (b : Fin k → EReal) : Fin k → EReal :=
  fun c => (∑ j : Fin n, x j * w j c) + b c

/-- The two-layer perceptron on one normalised row: dense to 128, `silu`, dense to 64. -/
def mlpRow (xn : Fin 64 → EReal) (w1 : Fin 64 → Fin 128 → EReal) (b1 : Fin 128 → EReal)
    (w2 : Fin 128 → Fin 64 → EReal) (b2 : Fin 64 → EReal) : Fin 64 → EReal :=
  dense (fun k => silu (dense xn w1 b1 k)) w2 b2

/-- One entry of an edge's message: `p` times the contraction of one row `im` of the edge's matrix with the sender's
    three vectors `v`, each scaled by `q`; the three products are added left to right. -/
def edge (p q : EReal) (v im : Fin 3 → EReal) : EReal :=
  p * ((im 0 * (q * v 0) + im 1 * (q * v 1)) + im 2 * (q * v 2))

/-- The same entry with the contraction written as a sum over `Fin 3`. -/
theorem edge_eq_sum (p q : EReal) (v im : Fin 3 → EReal) :
    edge p q v im = p * ∑ j : Fin 3, im j * (q * v j) := by
  unfold edge
  rw [Fin.sum_univ_three]

end Cert.Spec

end
-- ==== Proof.Arrays.lean ====
/-
  The three whole-array functions both programs compute, built from the row functions of `Cert.Spec`.

  `PArr x sc bi w1 b1 w2 b2` is the array of node rows: row `n` is the two-layer perceptron of the layer-normalised
  row `n` of `x` (used for `p` and, with the other weights, for `q`). `VArr v w` scales the nodes' three vectors
  channel by channel. `EArr p q v im` is the array of edge messages: entry `(e, i, c)` is `Cert.Spec.edge` of edge
  `e`'s gathered `p` and `q` at channel `c`, its gathered vectors at channel `c`, and row `i` of its 3×3 matrix.
  No program is imported: the index types are the literal shapes the two programs share.
-/
import proofs.«118783_j62440234549687_1_alg».proof.Proof.Spec

noncomputable section

namespace Cert.Spec

open Idealize.ShloMosaic Idealize.ShloMosaic.ValueIdx

/-- Node rows through layer normalisation and the two dense layers. -/
def PArr (x : (⟨2, ![50000, 64]⟩ : Shape).Idx → EReal) (sc bi : (⟨1, ![64]⟩ : Shape).Idx → EReal)
    (w1 : (⟨2, ![64, 128]⟩ : Shape).Idx → EReal) (b1 : (⟨1, ![128]⟩ : Shape).Idx → EReal)
    (w2 : (⟨2, ![128, 64]⟩ : Shape).Idx → EReal) (b2 : (⟨1, ![64]⟩ : Shape).Idx → EReal) :
    (⟨2, ![50000, 64]⟩ : Shape).Idx → EReal := fun y =>
  mlpRow (lnRow (fun j => x (ix2 (y 0) j)) (fun j => sc (ix1 j)) (fun j => bi (ix1 j)))
    (fun j k => w1 (ix2 j k)) (fun k => b1 (ix1 k)) (fun k c => w2 (ix2 k c)) (fun c => b2 (ix1 c)) (y 1)

/-- The nodes' vectors scaled per channel. -/
def VArr (v : (⟨3, ![50000, 3, 64]⟩ : Shape).Idx → EReal) (w : (⟨1, ![64]⟩ : Shape).Idx → EReal) :
    (⟨3, ![50000, 3, 64]⟩ : Shape).Idx → EReal := fun y => v y * w (ix1 (y 2))

/-- The edge messages from the gathered rows and the edges' 3×3 matrices. -/
def EArr (p q : (⟨2, ![800000, 64]⟩ : Shape).Idx → EReal) (v : (⟨3, ![800000, 3, 64]⟩ : Shape).Idx → EReal)
    (im : (⟨3, ![800000, 3, 3]⟩ : Shape).Idx → EReal) : (⟨3, ![800000, 3, 64]⟩ : Shape).Idx → EReal := fun y =>
  edge (p (ix2 (y 0) (y 2))) (q (ix2 (y 0) (y 2))) (fun j => v (ix3 (y 0) j (y 2))) (fun j => im (ix3 (y 0) (y 1) j))

end Cert.Spec

end
-- ==== Proof.RefArrays.lean ====
/-
  The reference program's arrays are the specification's arrays.

  Each operation of the reference is read at one index (the generated read-at-an-index lemmas), layer by layer: a row's
  mean and reciprocal deviation, the normalised row, a dense layer as a sum over the contracted axis, the `silu` call
  (jax spells `logistic a` as `1 / (1 + exp (-a))`, which is how `logistic` is defined on the extended reals), the
  second dense layer; the per-channel scaling of the vectors; and the messages, where the contraction over the matrix's
  second axis is a sum over `Fin 3`. The gathers are not opened: the messages are stated over the gathered arrays.
-/
import proofs.«118783_j62440234549687_1_alg».proof.Proof.Gen.ReferenceIdeal.Read
import proofs.«118783_j62440234549687_1_alg».proof.Proof.Arrays

noncomputable section

namespace Cert.ReferenceIdeal.RefArrays

open Cert.ReferenceIdeal Cert.ReferenceIdeal.Read Idealize.ShloMosaic Idealize.ShloMosaic.ValueIdx Cert.Spec
open scoped BigOperators

/-- The word of `1.0` denotes `1`. -/
theorem ofBits_one : Ideal.ofBits .f32 0x3F800000#32 = 1 := by
  simp [Ideal.ofBits, Ideal.ieee, -EReal.coe_mul]; norm_num

/-- The reference's row mean is the mean of the row. -/
theorem mean_row (x0 : (⟨S50000x64, .f32⟩ : BufTy).Contents (Elt Ideal)) (n : Fin 50000) :
    val_main_v3 (F := Ideal) x0 (ix2 n (0 : Fin 1)) = mean64 (fun j => x0 (ix2 n j)) := by
  rw [val_main_v3_apply, val_main_v1_apply, val_main_v0_apply, val_main_v2_apply, val_main_cst_0_apply, val_main_cst_apply]
  unfold mean64
  have e : ∀ k, idx_main_v0 (idx_main_v1 (ix2 n (0 : Fin 1))) k = ix2 n k := fun k => funext fun a => by match a with | ⟨0, _⟩ => rfl | ⟨1, _⟩ => rfl
  simp only [Ideal.hostDivf_def, Ideal.ofBits_def, Ideal.ofBits_zero_f32, zero_add, e]

/-- One centred square of the reference. -/
theorem sq_row (x0 : (⟨S50000x64, .f32⟩ : BufTy).Contents (Elt Ideal)) (n : Fin 50000) (k : Fin 64) :
    val_main_v6 (F := Ideal) x0 (ix2 n k) = centred (fun j => x0 (ix2 n j)) k * centred (fun j => x0 (ix2 n j)) k := by
  rw [val_main_v6_apply, val_main_v5_apply, val_main_v4_apply,
    show idx_main_v4 (ix2 n k) = ix2 n (0 : Fin 1) from funext fun a => by match a with | ⟨0, _⟩ => rfl | ⟨1, _⟩ => rfl, mean_row]
  rfl

/-- The reference's reciprocal deviation of a row. -/
theorem rstd_row (x0 : (⟨S50000x64, .f32⟩ : BufTy).Contents (Elt Ideal)) (n : Fin 50000) :
    val_main_v15 (F := Ideal) x0 (ix2 n (0 : Fin 1)) = rstd (fun j => x0 (ix2 n j)) := by
  rw [val_main_v15_apply, val_main_v14_apply, val_main_v10_apply, val_main_v8_apply, val_main_v7_apply, val_main_v9_apply,
    val_main_v13_apply, val_main_cst_1_apply, val_main_cst_2_apply, val_main_cst_3_apply]
  have e : ∀ k, idx_main_v7 (idx_main_v8 (ix2 n (0 : Fin 1))) k = ix2 n k := fun k => funext fun a => by match a with | ⟨0, _⟩ => rfl | ⟨1, _⟩ => rfl
  have hs : (∑ k : Fin 64, val_main_v6 (F := Ideal) x0 (idx_main_v7 (idx_main_v8 (ix2 n (0 : Fin 1))) k))
      = ∑ k : Fin 64, centred (fun j => x0 (ix2 n j)) k * centred (fun j => x0 (ix2 n j)) k :=
    Finset.sum_congr rfl fun k _ => by rw [e k, sq_row]
  rw [hs]
  unfold rstd mean64
  simp only [Ideal.hostDivf_def, Ideal.ofBits_def, Ideal.ofBits_zero_f32, zero_add, Ideal.hostUnary_rsqrt_def]
  rfl

/-- The reference's normalised row is `lnRow` of the row. -/
theorem ln_row (x0 : (⟨S50000x64, .f32⟩ : BufTy).Contents (Elt Ideal)) (x3 x4 : (⟨S64, .f32⟩ : BufTy).Contents (Elt Ideal)) (n : Fin 50000) (j : Fin 64) :
    val_main_v23 (F := Ideal) x0 x3 x4 (ix2 n j)
      = lnRow (fun j => x0 (ix2 n j)) (fun j => x3 (ix1 j)) (fun j => x4 (ix1 j)) j := by
  rw [val_main_v23_apply, val_main_v20_apply, val_main_v17_apply, val_main_v12_apply, val_main_v11_apply, val_main_v16_apply,
    val_main_v19_apply, val_main_v18_apply, val_main_v22_apply, val_main_v21_apply,
    show idx_main_v11 (ix2 n j) = ix2 n (0 : Fin 1) from funext fun a => by match a with | ⟨0, _⟩ => rfl | ⟨1, _⟩ => rfl,
    show idx_main_v16 (ix2 n j) = ix2 n (0 : Fin 1) from funext fun a => by match a with | ⟨0, _⟩ => rfl | ⟨1, _⟩ => rfl,
    show idx_main_v18 (idx_main_v19 (ix2 n j)) = ix1 j from funext fun a => by match a with | ⟨0, _⟩ => rfl,
    show idx_main_v21 (idx_main_v22 (ix2 n j)) = ix1 j from funext fun a => by match a with | ⟨0, _⟩ => rfl, mean_row, rstd_row]
  rfl

/-- The reference's first dense layer of `p` on a row. -/
theorem p_dense1 (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (n : Fin 50000) (k : Fin 128) :
    val_main_v30 (F := Ideal) x0 x3 x4 w1 b1 (ix2 n k)
      = dense (lnRow (fun j => x0 (ix2 n j)) (fun j => x3 (ix1 j)) (fun j => x4 (ix1 j))) (fun j k => w1 (ix2 j k)) (fun k => b1 (ix1 k)) k := by
  rw [val_main_v30_apply, val_main_v27_apply, val_main_v29_apply, val_main_v28_apply,
    show idx_main_v28 (idx_main_v29 (ix2 n k)) = ix1 k from funext fun a => by match a with | ⟨0, _⟩ => rfl]
  have hs : (∑ j : Fin 64, val_main_v23 (F := Ideal) x0 x3 x4 (lidx_main_v27 (ix2 n k) j) * w1 (ridx_main_v27 (ix2 n k) j))
      = ∑ j : Fin 64, lnRow (fun j => x0 (ix2 n j)) (fun j => x3 (ix1 j)) (fun j => x4 (ix1 j)) j * w1 (ix2 j k) :=
    Finset.sum_congr rfl fun j _ => by
      rw [show lidx_main_v27 (ix2 n k) j = ix2 n j from funext fun a => by match a with | ⟨0, _⟩ => rfl | ⟨1, _⟩ => rfl, show ridx_main_v27 (ix2 n k) j = ix2 j k from funext fun a => by match a with | ⟨0, _⟩ => rfl | ⟨1, _⟩ => rfl, ln_row]
  rw [hs]
  rfl

/-- The reference's `silu` call of `p` is `silu` entry by entry: `1 / (1 + exp (-a))` is `logistic a`. -/
theorem p_silu (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (i : S50000x128.Idx) :
    val_main_v31 (F := Ideal) x0 x3 x4 w1 b1 i = silu (val_main_v30 (F := Ideal) x0 x3 x4 w1 b1 i) := by
  rw [val_main_v31_apply, val_main_call0_v5_apply, val_main_call0_v4_apply, val_main_call0_cst_0_apply, val_main_call0_v3_apply, val_main_call0_v2_apply, val_main_call0_cst_apply,
    val_main_call0_v1_apply, val_main_call0_v0_apply]
  unfold silu Ideal.logistic
  simp only [Ideal.hostDivf_def, Ideal.ofBits_def, ofBits_one, Ideal.hostUnary_exp_def, Ideal.hostNegf_def, Ideal.mulf_def, Ideal.addf_def]
  rfl

/-- The reference's second dense layer of `p` on a row: the whole perceptron of the normalised row. -/
theorem p_dense2 (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (n : Fin 50000) (c : Fin 64) :
    val_main_v35 (F := Ideal) x0 x3 x4 w1 b1 w2 b2 (ix2 n c)
      = mlpRow (lnRow (fun j => x0 (ix2 n j)) (fun j => x3 (ix1 j)) (fun j => x4 (ix1 j)))
          (fun j k => w1 (ix2 j k)) (fun k => b1 (ix1 k)) (fun k c => w2 (ix2 k c)) (fun c => b2 (ix1 c)) c := by
  rw [val_main_v35_apply, val_main_v32_apply, val_main_v34_apply, val_main_v33_apply,
    show idx_main_v33 (idx_main_v34 (ix2 n c)) = ix1 c from funext fun a => by match a with | ⟨0, _⟩ => rfl]
  have hs : (∑ k : Fin 128, val_main_v31 (F := Ideal) x0 x3 x4 w1 b1 (lidx_main_v32 (ix2 n c) k) * w2 (ridx_main_v32 (ix2 n c) k))
      = ∑ k : Fin 128, silu (dense (lnRow (fun j => x0 (ix2 n j)) (fun j => x3 (ix1 j)) (fun j => x4 (ix1 j)))
          (fun j k => w1 (ix2 j k)) (fun k => b1 (ix1 k)) k) * w2 (ix2 k c) :=
    Finset.sum_congr rfl fun k _ => by
      rw [show lidx_main_v32 (ix2 n c) k = ix2 n k from funext fun a => by match a with | ⟨0, _⟩ => rfl | ⟨1, _⟩ => rfl, show ridx_main_v32 (ix2 n c) k = ix2 k c from funext fun a => by match a with | ⟨0, _⟩ => rfl | ⟨1, _⟩ => rfl,
        p_silu, p_dense1]
  rw [hs]
  rfl

/-- So the reference's array `p` is `PArr` of the arguments. -/
theorem p_arr (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal)) :
    val_main_v35 (F := Ideal) x0 x3 x4 w1 b1 w2 b2 = PArr x0 x3 x4 w1 b1 w2 b2 := by
  funext y
  obtain ⟨n, c, rfl⟩ : ∃ (n : Fin 50000) (c : Fin 64), y = ix2 n c := ⟨y 0, y 1, eq_ix2 y⟩
  exact p_dense2 x0 x3 x4 w1 b1 w2 b2 n c

/-- The reference's first dense layer of `q` on a row. -/
theorem q_dense1 (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (n : Fin 50000) (k : Fin 128) :
    val_main_v39 (F := Ideal) x0 x3 x4 w1 b1 (ix2 n k)
      = dense (lnRow (fun j => x0 (ix2 n j)) (fun j => x3 (ix1 j)) (fun j => x4 (ix1 j))) (fun j k => w1 (ix2 j k)) (fun k => b1 (ix1 k)) k := by
  rw [val_main_v39_apply, val_main_v36_apply, val_main_v38_apply, val_main_v37_apply,
    show idx_main_v37 (idx_main_v38 (ix2 n k)) = ix1 k from funext fun a => by match a with | ⟨0, _⟩ => rfl]
  have hs : (∑ j : Fin 64, val_main_v23 (F := Ideal) x0 x3 x4 (lidx_main_v36 (ix2 n k) j) * w1 (ridx_main_v36 (ix2 n k) j))
      = ∑ j : Fin 64, lnRow (fun j => x0 (ix2 n j)) (fun j => x3 (ix1 j)) (fun j => x4 (ix1 j)) j * w1 (ix2 j k) :=
    Finset.sum_congr rfl fun j _ => by
      rw [show lidx_main_v36 (ix2 n k) j = ix2 n j from funext fun a => by match a with | ⟨0, _⟩ => rfl | ⟨1, _⟩ => rfl, show ridx_main_v36 (ix2 n k) j = ix2 j k from funext fun a => by match a with | ⟨0, _⟩ => rfl | ⟨1, _⟩ => rfl, ln_row]
  rw [hs]
  rfl

/-- The reference's `silu` call of `q` is `silu` entry by entry: `1 / (1 + exp (-a))` is `logistic a`. -/
theorem q_silu (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (i : S50000x128.Idx) :
    val_main_v40 (F := Ideal) x0 x3 x4 w1 b1 i = silu (val_main_v39 (F := Ideal) x0 x3 x4 w1 b1 i) := by
  rw [val_main_v40_apply, val_main_call1_v5_apply, val_main_call1_v4_apply, val_main_call1_cst_0_apply, val_main_call1_v3_apply, val_main_call1_v2_apply, val_main_call1_cst_apply,
    val_main_call1_v1_apply, val_main_call1_v0_apply]
  unfold silu Ideal.logistic
  simp only [Ideal.hostDivf_def, Ideal.ofBits_def, ofBits_one, Ideal.hostUnary_exp_def, Ideal.hostNegf_def, Ideal.mulf_def, Ideal.addf_def]
  rfl

/-- The reference's second dense layer of `q` on a row: the whole perceptron of the normalised row. -/
theorem q_dense2 (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal))
    (n : Fin 50000) (c : Fin 64) :
    val_main_v44 (F := Ideal) x0 x3 x4 w1 b1 w2 b2 (ix2 n c)
      = mlpRow (lnRow (fun j => x0 (ix2 n j)) (fun j => x3 (ix1 j)) (fun j => x4 (ix1 j)))
          (fun j k => w1 (ix2 j k)) (fun k => b1 (ix1 k)) (fun k c => w2 (ix2 k c)) (fun c => b2 (ix1 c)) c := by
  rw [val_main_v44_apply, val_main_v41_apply, val_main_v43_apply, val_main_v42_apply,
    show idx_main_v42 (idx_main_v43 (ix2 n c)) = ix1 c from funext fun a => by match a with | ⟨0, _⟩ => rfl]
  have hs : (∑ k : Fin 128, val_main_v40 (F := Ideal) x0 x3 x4 w1 b1 (lidx_main_v41 (ix2 n c) k) * w2 (ridx_main_v41 (ix2 n c) k))
      = ∑ k : Fin 128, silu (dense (lnRow (fun j => x0 (ix2 n j)) (fun j => x3 (ix1 j)) (fun j => x4 (ix1 j)))
          (fun j k => w1 (ix2 j k)) (fun k => b1 (ix1 k)) k) * w2 (ix2 k c) :=
    Finset.sum_congr rfl fun k _ => by
      rw [show lidx_main_v41 (ix2 n c) k = ix2 n k from funext fun a => by match a with | ⟨0, _⟩ => rfl | ⟨1, _⟩ => rfl, show ridx_main_v41 (ix2 n c) k = ix2 k c from funext fun a => by match a with | ⟨0, _⟩ => rfl | ⟨1, _⟩ => rfl,
        q_silu, q_dense1]
  rw [hs]
  rfl

/-- So the reference's array `q` is `PArr` of the arguments. -/
theorem q_arr (x0 : (⟨S50000x64, .f32⟩ : BufTy).Contents (Elt Ideal)) (x3 x4 : (⟨S64, .f32⟩ : BufTy).Contents (Elt Ideal)) (w1 : (⟨S64x128, .f32⟩ : BufTy).Contents (Elt Ideal)) (b1 : (⟨S128, .f32⟩ : BufTy).Contents (Elt Ideal)) (w2 : (⟨S128x64, .f32⟩ : BufTy).Contents (Elt Ideal)) (b2 : (⟨S64, .f32⟩ : BufTy).Contents (Elt Ideal)) :
    val_main_v44 (F := Ideal) x0 x3 x4 w1 b1 w2 b2 = PArr x0 x3 x4 w1 b1 w2 b2 := by
  funext y
  obtain ⟨n, c, rfl⟩ : ∃ (n : Fin 50000) (c : Fin 64), y = ix2 n c := ⟨y 0, y 1, eq_ix2 y⟩
  exact q_dense2 x0 x3 x4 w1 b1 w2 b2 n c

/-- The reference's scaled vectors are `VArr` of the arguments. -/
theorem v_arr (x1 : (⟨S50000x3x64, .f32⟩ : BufTy).Contents (Elt Ideal)) (x5 : (⟨S64, .f32⟩ : BufTy).Contents (Elt Ideal)) : val_main_v26 (F := Ideal) x1 x5 = VArr x1 x5 := by
  funext y
  obtain ⟨n, k, c, rfl⟩ : ∃ (n : Fin 50000) (k : Fin 3) (c : Fin 64), y = ix3 n k c := ⟨y 0, y 1, y 2, eq_ix3 y⟩
  rw [val_main_v26_apply, val_main_v25_apply, val_main_v24_apply,
    show idx_main_v24 (idx_main_v25 (ix3 n k c)) = ix1 c from funext fun a => by match a with | ⟨0, _⟩ => rfl]
  rfl

/-- The reference's messages are `EArr` of its three gathered arrays and the edges' matrices: entry `(e, i, c)` is the
    gathered `p` times the contraction over `j` of the matrix entry `(e, i, j)` with `q · v` at `(e, j, c)`. -/
theorem msg_arr (x0 : (⟨S50000x64, .f32⟩ : BufTy).Contents (Elt Ideal)) (x1 : (⟨S50000x3x64, .f32⟩ : BufTy).Contents (Elt Ideal)) (x2 : (⟨S800000x3x3, .f32⟩ : BufTy).Contents (Elt Ideal)) (x3 x4 x5 : (⟨S64, .f32⟩ : BufTy).Contents (Elt Ideal))
    (x6 : (⟨S64x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal))
    (x10 : (⟨S64x128, .f32⟩ : BufTy).Contents (Elt Ideal)) (x11 : (⟨S128, .f32⟩ : BufTy).Contents (Elt Ideal)) (x12 : (⟨S128x64, .f32⟩ : BufTy).Contents (Elt Ideal)) (x13 : (⟨S64, .f32⟩ : BufTy).Contents (Elt Ideal))
    (x14 x15 : (⟨S800000, .i32⟩ : BufTy).Contents (Elt Ideal)) :
    val_main_v72 (F := Ideal) x0 x1 x2 x3 x4 x5 x6 x7 x8 x9 x10 x11 x12 x13 x14 x15
      = EArr (val_main_v51 (F := Ideal) x0 x3 x4 x6 x7 x8 x9 x15) (val_main_v58 (F := Ideal) x0 x3 x4 x10 x11 x12 x13 x14)
          (val_main_v65 (F := Ideal) x1 x5 x14) x2 := by
  funext y
  obtain ⟨e, i, c, rfl⟩ : ∃ (e : Fin 800000) (i : Fin 3) (c : Fin 64), y = ix3 e i c := ⟨y 0, y 1, y 2, eq_ix3 y⟩
  rw [val_main_v72_apply, val_main_v71_apply, val_main_v70_apply, val_main_v69_apply,
    show idx_main_v70 (idx_main_v71 (ix3 e i c)) = ix2 e c from funext fun a => by match a with | ⟨0, _⟩ => rfl | ⟨1, _⟩ => rfl]
  have hs : (∑ k : Fin 3, x2 (lidx_main_v69 (ix3 e i c) k)
        * val_main_v68 (F := Ideal) x0 x1 x3 x4 x5 x10 x11 x12 x13 x14 (ridx_main_v69 (ix3 e i c) k))
      = ∑ k : Fin 3, x2 (ix3 e i k) * (val_main_v58 (F := Ideal) x0 x3 x4 x10 x11 x12 x13 x14 (ix2 e c)
          * val_main_v65 (F := Ideal) x1 x5 x14 (ix3 e k c)) :=
    Finset.sum_congr rfl fun k _ => by
      rw [show lidx_main_v69 (ix3 e i c) k = ix3 e i k from funext fun a => by match a with | ⟨0, _⟩ => rfl | ⟨1, _⟩ => rfl | ⟨2, _⟩ => rfl,
        show ridx_main_v69 (ix3 e i c) k = ix3 e k c from funext fun a => by match a with | ⟨0, _⟩ => rfl | ⟨1, _⟩ => rfl | ⟨2, _⟩ => rfl,
        val_main_v68_apply, val_main_v67_apply, val_main_v66_apply,
        show idx_main_v66 (idx_main_v67 (ix3 e k c)) = ix2 e c from funext fun a => by match a with | ⟨0, _⟩ => rfl | ⟨1, _⟩ => rfl]
      rfl
  rw [hs]
  exact (edge_eq_sum _ _ _ _).symm

end Cert.ReferenceIdeal.RefArrays

end
-- ==== Proof.MlpBlock.lean ====
/-
  What one step of the node program leaves in its three output blocks, entry by entry, on the extended reals.

  A step reads a block of 1000 feature rows (64 channels each), the same nodes' three vectors per channel, and the
  weights. It writes the vectors scaled per channel, `vec · w`, and, for each row, the two perceptron outputs `p` and
  `q` of the layer-normalised row: `Cert.Spec.lnRow` followed by `Cert.Spec.mlpRow` with either pair of dense layers.

  Each stored term is read at one index. A pointwise operation reads its operands at that index. A sum over the lanes
  of a row is a sum over `Fin 64`. A cast `[n] → [n, 1]`, `[n] → [1, n]` or `[n] → [1, 1, n]` followed by a spread along
  the new axes reads the one entry with the same remaining coordinate. A matrix product into the zero accumulator at
  `(r, k)` is `∑ j, lhs (r, j) · rhs (j, k)`. A change of float format is the identity on the extended reals.
-/
import proofs.«118783_j62440234549687_1_alg».proof.Proof.Gen.KernelIdeal.Frame
import proofs.«118783_j62440234549687_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.MlpBlock

open Idealize.ShloMosaic Idealize.ShloMosaic.ValueIdx

/-! ## Layout operations in column form, read at an index given by coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[1, 1, a]` reads, at `(u, w, i)`, the operand at `i`. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-- A `[1, 1, c]` array broadcast to `[a, b, c]` reads, at `(p, q, e)`, the operand's one row at `e`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (e : Fin c) :
    broadcastTo ⟨3, ![a, b, c]⟩ v h (ix3 p q e) = v (ix3 (0 : Fin 1) (0 : Fin 1) e) := by
  refine broadcastTo_apply v h (ix3 p q e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

end Layout

/-! ## The vector scaling -/

/-- The scaled-vector term at `(r, k, c)`: the vector's entry times the channel's weight. -/
theorem pay3_apply (v64 : Vec Ideal S1000x3x64 .f32) (v65 : Vec Ideal S64 .f32) (r : Fin 1000) (k : Fin 3) (c : Fin 64) :
    Gen.k0_pay3 v64 v65 (ix3 r k c) = v64 (ix3 r k c) * v65 (ix1 c) :=
  congrArg (v64 (ix3 r k c) * ·)
    ((broadcastTo_11c_abc_apply _ Gen.broadcasts_S1x1x64_S1000x3x64 r k c).trans
      (shapeCast_a_11a_apply v65 Gen.shapeCasts_S64_S1x1x64 0 0 c))

/-! ## A sum over the 64 lanes of a row -/

/-- A lane sum of a `[1000, 64]` term at row `r` is the sum of the row's 64 entries. -/
theorem laneSum_apply (v : FVec Ideal S1000x64 .f32) (h : S1000x64.Reduces [1] S1000) (hφ : FKind.Formats .f32)
    (hacc : (0x00000000#32 : BitVec 32) = FKind.add.neutral .f32 hφ) (r : Fin 1000) :
    multiReduction .add [1] S1000 v 0x00000000#32 h hφ hacc (ix1 r) = ∑ j : Fin 64, v (ix2 r j) :=
  (Ideal.multiReduction_add_single v _ h hφ hacc (ix1 r)).trans
    (Finset.sum_congr rfl fun j _ => congrArg v (funext fun a => Fin.ext (by
      match a with
      | ⟨0, _⟩ => rfl
      | ⟨1, _⟩ => rfl)))

/-! ## The two matrix products, read at an entry

The operand indices of a product at output index `(r, k)` and contraction position `j` are `(r, j)` and `(j, k)`: the
kept coordinate on each side is the output's, the contracted one the contraction position's only coordinate. -/

/-- The left operand's row coordinate is the output's row. -/
theorem matmul_64_128_lhs0 (i : S1000x128.Idx) (q : dot_S1000x64_S64x128_S1000x128_1_0_0_1_n_n.contr.Idx) : (dot_S1000x64_S64x128_S1000x128_1_0_0_1_n_n.lhsIdx i q 0).val = (i 0).val := by
  unfold DotDims.lhsIdx
  rw [dif_neg (show ¬(0 : Fin S1000x64.rank) ∈ dot_S1000x64_S64x128_S1000x128_1_0_0_1_n_n.lhsBatch by decide),
    dif_pos (show (0 : Fin S1000x64.rank) ∈ dot_S1000x64_S64x128_S1000x128_1_0_0_1_n_n.lhsNonContracting by decide)]
  rfl
/-- The right operand's column coordinate is the output's column. -/
theorem matmul_64_128_rhs1 (i : S1000x128.Idx) (q : dot_S1000x64_S64x128_S1000x128_1_0_0_1_n_n.contr.Idx) : (dot_S1000x64_S64x128_S1000x128_1_0_0_1_n_n.rhsIdx i q 1).val = (i 1).val := by
  unfold DotDims.rhsIdx
  rw [dif_neg (show ¬(1 : Fin S64x128.rank) ∈ dot_S1000x64_S64x128_S1000x128_1_0_0_1_n_n.rhsBatch by decide),
    dif_pos (show (1 : Fin S64x128.rank) ∈ dot_S1000x64_S64x128_S1000x128_1_0_0_1_n_n.rhsNonContracting by decide)]
  rfl

/-- A `[1000, 64]` by `[64, 128]` product into the zero accumulator, at `(r, k)`: row `r` of the left operand against column `k` of the right. -/
theorem matmul_64_128_apply {φ₁ φ₂ : FTy} (lhs : FVec Ideal S1000x64 φ₁) (rhs : FVec Ideal S64x128 φ₂) (r : Fin 1000) (k : Fin 128) :
    matmul dot_S1000x64_S64x128_S1000x128_1_0_0_1_n_n none lhs rhs (constant (F := Ideal) S1000x128 .f32 0x00000000#32) (ix2 r k)
      = ∑ j : Fin 64, lhs (ix2 r j) * rhs (ix2 j k) := by
  refine (Ideal.matmul_constant_zero_apply dot_S1000x64_S64x128_S1000x128_1_0_0_1_n_n none lhs rhs (ix2 r k)).trans ?_
  rw [← Equiv.sum_comp (contrEquiv1 dot_S1000x64_S64x128_S1000x128_1_0_0_1_n_n 64 rfl rfl).symm]
  refine Finset.sum_congr rfl fun j _ => ?_
  have hk := contrEquiv1_symm_val dot_S1000x64_S64x128_S1000x128_1_0_0_1_n_n 64 rfl rfl j
  have el : dot_S1000x64_S64x128_S1000x128_1_0_0_1_n_n.lhsIdx (ix2 r k) ((contrEquiv1 dot_S1000x64_S64x128_S1000x128_1_0_0_1_n_n 64 rfl rfl).symm j) = ix2 r j :=
    funext fun a => Fin.ext (by
      match a with
      | ⟨0, _⟩ => exact matmul_64_128_lhs0 _ _
      | ⟨1, _⟩ => exact (dot_S1000x64_S64x128_S1000x128_1_0_0_1_n_n.lhsIdx_val_of_single rfl _ _).trans hk)
  have er : dot_S1000x64_S64x128_S1000x128_1_0_0_1_n_n.rhsIdx (ix2 r k) ((contrEquiv1 dot_S1000x64_S64x128_S1000x128_1_0_0_1_n_n 64 rfl rfl).symm j) = ix2 j k :=
    funext fun a => Fin.ext (by
      match a with
      | ⟨0, _⟩ => exact (dot_S1000x64_S64x128_S1000x128_1_0_0_1_n_n.rhsIdx_val_of_single rfl _ _).trans hk
      | ⟨1, _⟩ => exact matmul_64_128_rhs1 _ _)
  rw [el, er]

/-- The left operand's row coordinate is the output's row. -/
theorem matmul_128_64_lhs0 (i : S1000x64.Idx) (q : dot_S1000x128_S128x64_S1000x64_1_0_0_1_n_n.contr.Idx) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide),
    dif_pos (show (0 : Fin S1000x128.rank) ∈ dot_S1000x128_S128x64_S1000x64_1_0_0_1_n_n.lhsNonContracting by decide)]
  rfl
/-- The right operand's column coordinate is the output's column. -/
theorem matmul_128_64_rhs1 (i : S1000x64.Idx) (q : dot_S1000x128_S128x64_S1000x64_1_0_0_1_n_n.contr.Idx) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide),
    dif_pos (show (1 : Fin S128x64.rank) ∈ dot_S1000x128_S128x64_S1000x64_1_0_0_1_n_n.rhsNonContracting by decide)]
  rfl

/-- A `[1000, 128]` by `[128, 64]` product into the zero accumulator, at `(r, k)`: row `r` of the left operand against column `k` of the right. -/
theorem matmul_128_64_apply {φ₁ φ₂ : FTy} (lhs : FVec Ideal S1000x128 φ₁) (rhs : FVec Ideal S128x64 φ₂) (r : Fin 1000) (k : Fin 64) :
    matmul dot_S1000x128_S128x64_S1000x64_1_0_0_1_n_n none lhs rhs (constant (F := Ideal) S1000x64 .f32 0x00000000#32) (ix2 r k)
      = ∑ j : Fin 128, lhs (ix2 r j) * rhs (ix2 j k) := by
  refine (Ideal.matmul_constant_zero_apply dot_S1000x128_S128x64_S1000x64_1_0_0_1_n_n none lhs rhs (ix2 r k)).trans ?_
  rw [← Equiv.sum_comp (contrEquiv1 dot_S1000x128_S128x64_S1000x64_1_0_0_1_n_n 128 rfl rfl).symm]
  refine Finset.sum_congr rfl fun j _ => ?_
  have hk := contrEquiv1_symm_val dot_S1000x128_S128x64_S1000x64_1_0_0_1_n_n 128 rfl rfl j
  have el : dot_S1000x128_S128x64_S1000x64_1_0_0_1_n_n.lhsIdx (ix2 r k) ((contrEquiv1 dot_S1000x128_S128x64_S1000x64_1_0_0_1_n_n 128 rfl rfl).symm j) = ix2 r j :=
    funext fun a => Fin.ext (by
      match a with
      | ⟨0, _⟩ => exact matmul_128_64_lhs0 _ _
      | ⟨1, _⟩ => exact (dot_S1000x128_S128x64_S1000x64_1_0_0_1_n_n.lhsIdx_val_of_single rfl _ _).trans hk)
  have er : dot_S1000x128_S128x64_S1000x64_1_0_0_1_n_n.rhsIdx (ix2 r k) ((contrEquiv1 dot_S1000x128_S128x64_S1000x64_1_0_0_1_n_n 128 rfl rfl).symm j) = ix2 j k :=
    funext fun a => Fin.ext (by
      match a with
      | ⟨0, _⟩ => exact (dot_S1000x128_S128x64_S1000x64_1_0_0_1_n_n.rhsIdx_val_of_single rfl _ _).trans hk
      | ⟨1, _⟩ => exact matmul_128_64_rhs1 _ _)
  rw [el, er]

/-! ## The layer-normalised row -/

section RowBroadcast
variable {α : Type}

/-- A length-`b` vector viewed as one row and spread over `a` rows reads, at `(p, c)`, the vector at `c`. -/
theorem rowBroadcast_apply {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc 0 c)

end RowBroadcast

/-- The mean over the 64 lanes of each row, kept as a column: the lane sum, cast from `[1000]` to `[1000, 1]`, divided
    by the splat of `64.0`. -/
def rowMean (v : FVec Ideal S1000x64 .f32) : FVec Ideal S1000x1 .f32 :=
  divf (shapeCast S1000x1 (multiReduction .add [1] S1000 v 0x00000000#32 Gen.reduces_S1000x64_S1000 (.inl rfl) rfl)
      Gen.shapeCasts_S1000_S1000x1)
    (broadcast S1000x1 (Scalar.ofBits .f32 0x42800000#32))

/-- At row `r` it is the mean of the row's 64 entries. -/
theorem rowMean_apply (v : FVec Ideal S1000x64 .f32) (r : Fin 1000) (u : Fin 1) :
    rowMean v (ix2 r u) = Cert.Spec.mean64 (fun j => v (ix2 r j)) :=
  congrArg (fun z => Ideal.div z (Ideal.ofBits .f32 0x42800000#32))
    ((shapeCast_a_a1_apply _ Gen.shapeCasts_S1000_S1000x1 r u).trans (laneSum_apply v _ _ _ r))

/-- The column spread back over the 64 lanes reads the row's mean at every lane. -/
theorem rowMean_broadcast_apply (v : FVec Ideal S1000x64 .f32) (r : Fin 1000) (j : Fin 64) :
    broadcastTo S1000x64 (rowMean v) Gen.broadcasts_S1000x1_S1000x64 (ix2 r j) = Cert.Spec.mean64 (fun j => v (ix2 r j)) :=
  (broadcastTo_a1_ab_apply _ Gen.broadcasts_S1000x1_S1000x64 r j).trans (rowMean_apply v r 0)

/-- The normalised block at `(r, j)`: row `r` centred at its mean, scaled by the reciprocal standard deviation of the
    row, then by the channel's scale, plus the channel's bias. The centred row is formed twice from the same mean (once
    for the variance, once for the result); the variance is the mean of its squares. -/
theorem pay4_apply (v0 : Vec Ideal S1000x64 .f32) (v19 v23 : Vec Ideal S64 .f32) (r : Fin 1000) (j : Fin 64) :
    Gen.k0_pay4 v0 v19 v23 (ix2 r j)
      = Cert.Spec.lnRow (fun j => v0 (ix2 r j)) (fun j => v19 (ix1 j)) (fun j => v23 (ix1 j)) j := by
  have hc : ∀ k : Fin 64, subf v0 (broadcastTo S1000x64 (rowMean v0) Gen.broadcasts_S1000x1_S1000x64) (ix2 r k)
      = Cert.Spec.centred (fun j => v0 (ix2 r j)) k :=
    fun k => congrArg (v0 (ix2 r k) - ·) (rowMean_broadcast_apply v0 r k)
  have hvar : rowMean (mulf (subf v0 (broadcastTo S1000x64 (rowMean v0) Gen.broadcasts_S1000x1_S1000x64))
        (subf v0 (broadcastTo S1000x64 (rowMean v0) Gen.broadcasts_S1000x1_S1000x64))) (ix2 r (0 : Fin 1))
      = Cert.Spec.mean64 (fun k => Cert.Spec.centred (fun j => v0 (ix2 r j)) k * Cert.Spec.centred (fun j => v0 (ix2 r j)) k) :=
    (rowMean_apply _ r 0).trans (congrArg Cert.Spec.mean64 (funext fun k => congrArg₂ (· * ·) (hc k) (hc k)))
  have hr : broadcastTo S1000x64 (rsqrt (addf (rowMean (mulf (subf v0 (broadcastTo S1000x64 (rowMean v0) Gen.broadcasts_S1000x1_S1000x64))
        (subf v0 (broadcastTo S1000x64 (rowMean v0) Gen.broadcasts_S1000x1_S1000x64))))
        (broadcast S1000x1 (Scalar.ofBits .f32 0x3727C5AC#32)))) Gen.broadcasts_S1000x1_S1000x64 (ix2 r j)
      = Cert.Spec.rstd (fun j => v0 (ix2 r j)) :=
    (broadcastTo_a1_ab_apply _ Gen.broadcasts_S1000x1_S1000x64 r j).trans
      (congrArg (fun z => Ideal.rsqrt (z + Ideal.ofBits .f32 0x3727C5AC#32)) hvar)
  exact congrArg₂ (· + ·)
    (congrArg₂ (· * ·) (congrArg₂ (· * ·) (hc j) hr)
      (rowBroadcast_apply v19 Gen.shapeCasts_S64_S1x64 Gen.broadcasts_S1x64_S1000x64 r j))
    (rowBroadcast_apply v23 Gen.shapeCasts_S64_S1x64 Gen.broadcasts_S1x64_S1000x64 r j)

/-! ## Dense, `silu`, dense -/

/-- The perceptron on a normalised block `xn`, at `(r, c)`: row `r` of `xn` through the first dense layer (64 to 128),
    `silu`, and the second dense layer (128 to 64). Both outputs of the body go through this chain, each with its own
    weights; every change of format on the way is the identity on the extended reals. -/
theorem pay2_apply (xn : FVec Ideal S1000x64 .bf16) (w1 : Vec Ideal S64x128 .f32) (b1 : Vec Ideal S128 .f32)
    (w2 : Vec Ideal S128x64 .f32) (b2 : Vec Ideal S64 .f32) (r : Fin 1000) (c : Fin 64) :
    Gen.k0_pay2 xn w1 b1 w2 b2 (ix2 r c)
      = Cert.Spec.mlpRow (fun j => xn (ix2 r j)) (fun j k => w1 (ix2 j k)) (fun k => b1 (ix1 k))
          (fun k c' => w2 (ix2 k c')) (fun c' => b2 (ix1 c')) c := by
  have hh : ∀ k : Fin 128,
      addf (matmul dot_S1000x64_S64x128_S1000x128_1_0_0_1_n_n none xn (truncf .bf16 w1 Gen.bitsLt_bf16_f32)
          (constant (F := Ideal) S1000x128 .f32 0x00000000#32))
        (broadcastTo S1000x128 (shapeCast S1x128 b1 Gen.shapeCasts_S128_S1x128) Gen.broadcasts_S1x128_S1000x128) (ix2 r k)
      = Cert.Spec.dense (fun j => xn (ix2 r j)) (fun j k => w1 (ix2 j k)) (fun k => b1 (ix1 k)) k :=
    fun k => congrArg₂ (· + ·) (matmul_64_128_apply xn (truncf .bf16 w1 Gen.bitsLt_bf16_f32) r k)
      (rowBroadcast_apply b1 Gen.shapeCasts_S128_S1x128 Gen.broadcasts_S1x128_S1000x128 r k)
  exact congrArg₂ (· + ·)
    ((matmul_128_64_apply _ (truncf .bf16 w2 Gen.bitsLt_bf16_f32) r c).trans
      (Finset.sum_congr rfl fun k _ => congrArg (fun z => Cert.Spec.silu z * w2 (ix2 k c)) (hh k)))
    (rowBroadcast_apply b2 Gen.shapeCasts_S64_S1x64 Gen.broadcasts_S1x64_S1000x64 r c)

/-! ## What the body leaves in its three output blocks -/

/-- The offsets of a whole-block access are all zero, at rank 1, 2 and 3. -/
theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

section Blocks
variable (x0 : Vec Ideal S1000x64 .f32) (x1 : Vec Ideal S1000x3x64 .f32) (x2 x3 x4 : Vec Ideal S64 .f32)
  (x5 : Vec Ideal S64x128 .f32) (x6 : Vec Ideal S128 .f32) (x7 : Vec Ideal S128x64 .f32) (x8 : Vec Ideal S64 .f32)
  (x9 : Vec Ideal S64x128 .f32) (x10 : Vec Ideal S128 .f32) (x11 : Vec Ideal S128x64 .f32) (x12 : Vec Ideal S64 .f32)

/-- The vector block: every vector entry scaled by its channel's weight. -/
theorem vecnorm_block (r : Fin 1000) (k : Fin 3) (c : Fin 64) :
    Gen.out0_15 x0 x1 x2 x3 x4 x5 x6 x7 x8 x9 x10 x11 x12 (ix3 r k c) = x1 (ix3 r k c) * x4 (ix1 c) := by
  unfold Gen.out0_15
  rw [View.canon_unit_zero zero3]
  simp only [View.ld_unit_zero (S := S1000x3x64) zero3, View.ld_unit_zero (S := S64) zero1]
  exact pay3_apply x1 x4 r k c

/-- The `p` block: the perceptron with the first pair of layers on the normalised feature rows. -/
theorem p_block (r : Fin 1000) (c : Fin 64) :
    Gen.out0_13 x0 x1 x2 x3 x4 x5 x6 x7 x8 x9 x10 x11 x12 (ix2 r c)
      = Cert.Spec.mlpRow (Cert.Spec.lnRow (fun j => x0 (ix2 r j)) (fun j => x2 (ix1 j)) (fun j => x3 (ix1 j)))
          (fun j k => x5 (ix2 j k)) (fun k => x6 (ix1 k)) (fun k c' => x7 (ix2 k c')) (fun c' => x8 (ix1 c')) c := by
  unfold Gen.out0_13
  rw [View.canon_unit_zero zero2]
  simp only [View.ld_unit_zero (S := S1000x64) zero2, View.ld_unit_zero (S := S64x128) zero2,
    View.ld_unit_zero (S := S128x64) zero2, View.ld_unit_zero (S := S64) zero1, View.ld_unit_zero (S := S128) zero1]
  refine (pay2_apply (Gen.k0_pay4 x0 x2 x3) x5 x6 x7 x8 r c).trans ?_
  exact congrArg (fun xn => Cert.Spec.mlpRow xn (fun j k => x5 (ix2 j k)) (fun k => x6 (ix1 k)) (fun k c' => x7 (ix2 k c'))
    (fun c' => x8 (ix1 c')) c) (funext fun j => pay4_apply x0 x2 x3 r j)

/-- The `q` block: the same with the second pair of layers. -/
theorem q_block (r : Fin 1000) (c : Fin 64) :
    Gen.out0_14 x0 x1 x2 x3 x4 x5 x6 x7 x8 x9 x10 x11 x12 (ix2 r c)
      = Cert.Spec.mlpRow (Cert.Spec.lnRow (fun j => x0 (ix2 r j)) (fun j => x2 (ix1 j)) (fun j => x3 (ix1 j)))
          (fun j k => x9 (ix2 j k)) (fun k => x10 (ix1 k)) (fun k c' => x11 (ix2 k c')) (fun c' => x12 (ix1 c')) c := by
  unfold Gen.out0_14
  rw [View.canon_unit_zero zero2]
  simp only [View.ld_unit_zero (S := S1000x64) zero2, View.ld_unit_zero (S := S64x128) zero2,
    View.ld_unit_zero (S := S128x64) zero2, View.ld_unit_zero (S := S64) zero1, View.ld_unit_zero (S := S128) zero1]
  refine (pay2_apply (Gen.k0_pay4 x0 x2 x3) x9 x10 x11 x12 r c).trans ?_
  exact congrArg (fun xn => Cert.Spec.mlpRow xn (fun j k => x9 (ix2 j k)) (fun k => x10 (ix1 k)) (fun k c' => x11 (ix2 k c'))
    (fun c' => x12 (ix1 c')) c) (funext fun j => pay4_apply x0 x2 x3 r j)

end Blocks

end Cert.KernelIdeal.MlpBlock

end
-- ==== Proof.NodeArrays.lean ====
/-
  From the blocks to the arrays, for the node program: what its three output arrays hold after the last grid point.

  The program runs over 50 grid points; point `t` reads rows `1000 t` to `1000 t + 999` of the features and of the vectors,
  reads every weight whole, and writes back the same rows of the three outputs. What a point leaves in its output blocks
  is known entry by entry (`Cert.KernelIdeal.MlpBlock`); here each block entry is placed in its array (`1000 t` rows down
  for the moving windows, the same index for the weights), so that point `t` writes back block `t` of one function of the
  arrays the region finds: `Cert.Spec.PArr` with either pair of layers, and `Cert.Spec.VArr`. The 50 blocks cover each
  output array, so after the last point each array is that function.
-/
import proofs.«118783_j62440234549687_1_alg».proof.Proof.Gen.KernelIdeal.Frame
import proofs.«118783_j62440234549687_1_alg».proof.Proof.MlpBlock
import proofs.«118783_j62440234549687_1_alg».proof.Proof.Arrays
import Idealize.ShloMosaic.Lib.Pipeline.Value
import Idealize.ShloMosaic.Lib.ValueIdx

noncomputable section

namespace Cert.KernelIdeal.NodeArrays

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## Where each window's block sits, at every grid point

The index maps, decided over the 50 grid points: the feature rows (window 0), the vectors (window 1) and the three
outputs (windows 13, 14, 15) move with the point along the node axis; every weight's block (windows 2 to 12) is its
whole array. -/

/-- Window 0's block moves with the point along the node axis. -/
theorem idx0_0 : ∀ t : Fin cfg0.N, win0_0.index t (0 : Fin 2) = t.val ∧ win0_0.index t (1 : Fin 2) = 0 :=
  (by decide +kernel : ∀ t : Fin grid0.N, _)
/-- Window 1's block moves with the point along the node axis. -/
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
/-- Window 2's block is its whole array at every point. -/
theorem idx0_2 : ∀ t : Fin cfg0.N, win0_2.index t (0 : Fin 1) = 0 :=
  (by decide +kernel : ∀ t : Fin grid0.N, _)
/-- Window 3's block is its whole array at every point. -/
theorem idx0_3 : ∀ t : Fin cfg0.N, win0_3.index t (0 : Fin 1) = 0 :=
  (by decide +kernel : ∀ t : Fin grid0.N, _)
/-- Window 4's block is its whole array at every point. -/
theorem idx0_4 : ∀ t : Fin cfg0.N, win0_4.index t (0 : Fin 1) = 0 :=
  (by decide +kernel : ∀ t : Fin grid0.N, _)
/-- Window 5's block is its whole array at every point. -/
theorem idx0_5 : ∀ t : Fin cfg0.N, win0_5.index t (0 : Fin 2) = 0 ∧ win0_5.index t (1 : Fin 2) = 0 :=
  (by decide +kernel : ∀ t : Fin grid0.N, _)
/-- Window 6's block is its whole array at every point. -/
theorem idx0_6 : ∀ t : Fin cfg0.N, win0_6.index t (0 : Fin 1) = 0 :=
  (by decide +kernel : ∀ t : Fin grid0.N, _)
/-- Window 7's block is its whole array at every point. -/
theorem idx0_7 : ∀ t : Fin cfg0.N, win0_7.index t (0 : Fin 2) = 0 ∧ win0_7.index t (1 : Fin 2) = 0 :=
  (by decide +kernel : ∀ t : Fin grid0.N, _)
/-- Window 8's block is its whole array at every point. -/
theorem idx0_8 : ∀ t : Fin cfg0.N, win0_8.index t (0 : Fin 1) = 0 :=
  (by decide +kernel : ∀ t : Fin grid0.N, _)
/-- Window 9's block is its whole array at every point. -/
theorem idx0_9 : ∀ t : Fin cfg0.N, win0_9.index t (0 : Fin 2) = 0 ∧ win0_9.index t (1 : Fin 2) = 0 :=
  (by decide +kernel : ∀ t : Fin grid0.N, _)
/-- Window 10's block is its whole array at every point. -/
theorem idx0_10 : ∀ t : Fin cfg0.N, win0_10.index t (0 : Fin 1) = 0 :=
  (by decide +kernel : ∀ t : Fin grid0.N, _)
/-- Window 11's block is its whole array at every point. -/
theorem idx0_11 : ∀ t : Fin cfg0.N, win0_11.index t (0 : Fin 2) = 0 ∧ win0_11.index t (1 : Fin 2) = 0 :=
  (by decide +kernel : ∀ t : Fin grid0.N, _)
/-- Window 12's block is its whole array at every point. -/
theorem idx0_12 : ∀ t : Fin cfg0.N, win0_12.index t (0 : Fin 1) = 0 :=
  (by decide +kernel : ∀ t : Fin grid0.N, _)
/-- Window 13's block moves with the point along the node axis. -/
theorem idx0_13 : ∀ t : Fin cfg0.N, win0_13.index t (0 : Fin 2) = t.val ∧ win0_13.index t (1 : Fin 2) = 0 :=
  (by decide +kernel : ∀ t : Fin grid0.N, _)
/-- Window 14's block moves with the point along the node axis. -/
theorem idx0_14 : ∀ t : Fin cfg0.N, win0_14.index t (0 : Fin 2) = t.val ∧ win0_14.index t (1 : Fin 2) = 0 :=
  (by decide +kernel : ∀ t : Fin grid0.N, _)
/-- Window 15's block moves with the point along the node axis. -/
theorem idx0_15 : ∀ t : Fin cfg0.N, win0_15.index t (0 : Fin 3) = t.val ∧ win0_15.index t (1 : Fin 3) = 0 ∧ win0_15.index t (2 : Fin 3) = 0 :=
  (by decide +kernel : ∀ t : Fin grid0.N, _)

/-- There are 50 grid points. -/
theorem lt_50 (t : Fin cfg0.N) : t.val < 50 := by
  have h : cfg0.N = 50 := N_0
  have := t.isLt
  omega

/-! ## A block's entry in its array -/

/-- An entry of window 0's block at point `t` sits in the array `1000 t` rows further down. -/
theorem emb0_0 (t : Fin cfg0.N) (r : Fin 1000) (j : Fin 64) :
    (((cfg0.win 0).blk t).view.emb (ix2 r j) : S50000x64.Idx) = ix2 (⟨t.val * 1000 + r.val, by have := lt_50 t; omega⟩ : Fin 50000) j := by
  obtain ⟨e0, e1⟩ := idx0_0 t
  funext a; apply Fin.ext
  match a with
  | ⟨0, _⟩ => show win0_0.index t (0 : Fin 2) * 1000 + 1 * r.val = t.val * 1000 + r.val; omega
  | ⟨1, _⟩ => show win0_0.index t (1 : Fin 2) * 64 + 1 * j.val = j.val; omega

/-- An entry of window 1's block at point `t` sits in the array `1000 t` rows further down. -/
theorem emb0_1 (t : Fin cfg0.N) (r : Fin 1000) (j : Fin 3) (k : Fin 64) :
    (((cfg0.win 1).blk t).view.emb (ix3 r j k) : S50000x3x64.Idx) = ix3 (⟨t.val * 1000 + r.val, by have := lt_50 t; omega⟩ : Fin 50000) j k := by
  obtain ⟨e0, e1, e2⟩ := idx0_1 t
  funext a; apply Fin.ext
  match a with
  | ⟨0, _⟩ => show win0_1.index t (0 : Fin 3) * 1000 + 1 * r.val = t.val * 1000 + r.val; omega
  | ⟨1, _⟩ => show win0_1.index t (1 : Fin 3) * 3 + 1 * j.val = j.val; omega
  | ⟨2, _⟩ => show win0_1.index t (2 : Fin 3) * 64 + 1 * k.val = k.val; omega

/-- An entry of window 2's block sits at the same index of its array. -/
theorem emb0_2 (t : Fin cfg0.N) (r : Fin 64) :
    (((cfg0.win 2).blk t).view.emb (ix1 r) : S64.Idx) = ix1 r := by
  have e0 := idx0_2 t
  funext a; apply Fin.ext
  match a with
  | ⟨0, _⟩ => show win0_2.index t (0 : Fin 1) * 64 + 1 * r.val = r.val; omega

/-- An entry of window 3's block sits at the same index of its array. -/
theorem emb0_3 (t : Fin cfg0.N) (r : Fin 64) :
    (((cfg0.win 3).blk t).view.emb (ix1 r) : S64.Idx) = ix1 r := by
  have e0 := idx0_3 t
  funext a; apply Fin.ext
  match a with
  | ⟨0, _⟩ => show win0_3.index t (0 : Fin 1) * 64 + 1 * r.val = r.val; omega

/-- An entry of window 4's block sits at the same index of its array. -/
theorem emb0_4 (t : Fin cfg0.N) (r : Fin 64) :
    (((cfg0.win 4).blk t).view.emb (ix1 r) : S64.Idx) = ix1 r := by
  have e0 := idx0_4 t
  funext a; apply Fin.ext
  match a with
  | ⟨0, _⟩ => show win0_4.index t (0 : Fin 1) * 64 + 1 * r.val = r.val; omega

/-- An entry of window 5's block sits at the same index of its array. -/
theorem emb0_5 (t : Fin cfg0.N) (r : Fin 64) (j : Fin 128) :
    (((cfg0.win 5).blk t).view.emb (ix2 r j) : S64x128.Idx) = ix2 r j := by
  obtain ⟨e0, e1⟩ := idx0_5 t
  funext a; apply Fin.ext
  match a with
  | ⟨0, _⟩ => show win0_5.index t (0 : Fin 2) * 64 + 1 * r.val = r.val; omega
  | ⟨1, _⟩ => show win0_5.index t (1 : Fin 2) * 128 + 1 * j.val = j.val; omega

/-- An entry of window 6's block sits at the same index of its array. -/
theorem emb0_6 (t : Fin cfg0.N) (r : Fin 128) :
    (((cfg0.win 6).blk t).view.emb (ix1 r) : S128.Idx) = ix1 r := by
  have e0 := idx0_6 t
  funext a; apply Fin.ext
  match a with
  | ⟨0, _⟩ => show win0_6.index t (0 : Fin 1) * 128 + 1 * r.val = r.val; omega

/-- An entry of window 7's block sits at the same index of its array. -/
theorem emb0_7 (t : Fin cfg0.N) (r : Fin 128) (j : Fin 64) :
    (((cfg0.win 7).blk t).view.emb (ix2 r j) : S128x64.Idx) = ix2 r j := by
  obtain ⟨e0, e1⟩ := idx0_7 t
  funext a; apply Fin.ext
  match a with
  | ⟨0, _⟩ => show win0_7.index t (0 : Fin 2) * 128 + 1 * r.val = r.val; omega
  | ⟨1, _⟩ => show win0_7.index t (1 : Fin 2) * 64 + 1 * j.val = j.val; omega

/-- An entry of window 8's block sits at the same index of its array. -/
theorem emb0_8 (t : Fin cfg0.N) (r : Fin 64) :
    (((cfg0.win 8).blk t).view.emb (ix1 r) : S64.Idx) = ix1 r := by
  have e0 := idx0_8 t
  funext a; apply Fin.ext
  match a with
  | ⟨0, _⟩ => show win0_8.index t (0 : Fin 1) * 64 + 1 * r.val = r.val; omega

/-- An entry of window 9's block sits at the same index of its array. -/
theorem emb0_9 (t : Fin cfg0.N) (r : Fin 64) (j : Fin 128) :
    (((cfg0.win 9).blk t).view.emb (ix2 r j) : S64x128.Idx) = ix2 r j := by
  obtain ⟨e0, e1⟩ := idx0_9 t
  funext a; apply Fin.ext
  match a with
  | ⟨0, _⟩ => show win0_9.index t (0 : Fin 2) * 64 + 1 * r.val = r.val; omega
  | ⟨1, _⟩ => show win0_9.index t (1 : Fin 2) * 128 + 1 * j.val = j.val; omega

/-- An entry of window 10's block sits at the same index of its array. -/
theorem emb0_10 (t : Fin cfg0.N) (r : Fin 128) :
    (((cfg0.win 10).blk t).view.emb (ix1 r) : S128.Idx) = ix1 r := by
  have e0 := idx0_10 t
  funext a; apply Fin.ext
  match a with
  | ⟨0, _⟩ => show win0_10.index t (0 : Fin 1) * 128 + 1 * r.val = r.val; omega

/-- An entry of window 11's block sits at the same index of its array. -/
theorem emb0_11 (t : Fin cfg0.N) (r : Fin 128) (j : Fin 64) :
    (((cfg0.win 11).blk t).view.emb (ix2 r j) : S128x64.Idx) = ix2 r j := by
  obtain ⟨e0, e1⟩ := idx0_11 t
  funext a; apply Fin.ext
  match a with
  | ⟨0, _⟩ => show win0_11.index t (0 : Fin 2) * 128 + 1 * r.val = r.val; omega
  | ⟨1, _⟩ => show win0_11.index t (1 : Fin 2) * 64 + 1 * j.val = j.val; omega

/-- An entry of window 12's block sits at the same index of its array. -/
theorem emb0_12 (t : Fin cfg0.N) (r : Fin 64) :
    (((cfg0.win 12).blk t).view.emb (ix1 r) : S64.Idx) = ix1 r := by
  have e0 := idx0_12 t
  funext a; apply Fin.ext
  match a with
  | ⟨0, _⟩ => show win0_12.index t (0 : Fin 1) * 64 + 1 * r.val = r.val; omega

/-- An entry of window 13's block at point `t` sits in the array `1000 t` rows further down. -/
theorem emb0_13 (t : Fin cfg0.N) (r : Fin 1000) (j : Fin 64) :
    (((cfg0.win 13).blk t).view.emb (ix2 r j) : S50000x64.Idx) = ix2 (⟨t.val * 1000 + r.val, by have := lt_50 t; omega⟩ : Fin 50000) j := by
  obtain ⟨e0, e1⟩ := idx0_13 t
  funext a; apply Fin.ext
  match a with
  | ⟨0, _⟩ => show win0_13.index t (0 : Fin 2) * 1000 + 1 * r.val = t.val * 1000 + r.val; omega
  | ⟨1, _⟩ => show win0_13.index t (1 : Fin 2) * 64 + 1 * j.val = j.val; omega

/-- An entry of window 14's block at point `t` sits in the array `1000 t` rows further down. -/
theorem emb0_14 (t : Fin cfg0.N) (r : Fin 1000) (j : Fin 64) :
    (((cfg0.win 14).blk t).view.emb (ix2 r j) : S50000x64.Idx) = ix2 (⟨t.val * 1000 + r.val, by have := lt_50 t; omega⟩ : Fin 50000) j := by
  obtain ⟨e0, e1⟩ := idx0_14 t
  funext a; apply Fin.ext
  match a with
  | ⟨0, _⟩ => show win0_14.index t (0 : Fin 2) * 1000 + 1 * r.val = t.val * 1000 + r.val; omega
  | ⟨1, _⟩ => show win0_14.index t (1 : Fin 2) * 64 + 1 * j.val = j.val; omega

/-- An entry of window 15's block at point `t` sits in the array `1000 t` rows further down. -/
theorem emb0_15 (t : Fin cfg0.N) (r : Fin 1000) (j : Fin 3) (k : Fin 64) :
    (((cfg0.win 15).blk t).view.emb (ix3 r j k) : S50000x3x64.Idx) = ix3 (⟨t.val * 1000 + r.val, by have := lt_50 t; omega⟩ : Fin 50000) j k := by
  obtain ⟨e0, e1, e2⟩ := idx0_15 t
  funext a; apply Fin.ext
  match a with
  | ⟨0, _⟩ => show win0_15.index t (0 : Fin 3) * 1000 + 1 * r.val = t.val * 1000 + r.val; omega
  | ⟨1, _⟩ => show win0_15.index t (1 : Fin 3) * 3 + 1 * j.val = j.val; omega
  | ⟨2, _⟩ => show win0_15.index t (2 : Fin 3) * 64 + 1 * k.val = k.val; omega

/-! ## The input blocks as the arrays the region finds -/

/-- Window 0's block at point `t`, read at an entry, is the array as the region finds it, `1000 t` rows further down. -/
theorem iblk0_0_apply (c : Dev nD) (t : Fin cfg0.N) (r : Fin 1000) (j : Fin 64) :
    (iblk0 V c 0 t : Vec Ideal S1000x64 .f32) (ix2 r j) = (V c main_arg0 : S50000x64.Idx → EReal) (ix2 (⟨t.val * 1000 + r.val, by have := lt_50 t; omega⟩ : Fin 50000) j) := by
  show (V c main_arg0 : S50000x64.Idx → EReal) (((cfg0.win 0).blk t).view.emb (ix2 r j)) = _
  rw [emb0_0 t r j]

/-- Window 1's block at point `t`, read at an entry, is the array as the region finds it, `1000 t` rows further down. -/
theorem iblk0_1_apply (c : Dev nD) (t : Fin cfg0.N) (r : Fin 1000) (j : Fin 3) (k : Fin 64) :
    (iblk0 V c 1 t : Vec Ideal S1000x3x64 .f32) (ix3 r j k) = (V c main_arg1 : S50000x3x64.Idx → EReal) (ix3 (⟨t.val * 1000 + r.val, by have := lt_50 t; omega⟩ : Fin 50000) j k) := by
  show (V c main_arg1 : S50000x3x64.Idx → EReal) (((cfg0.win 1).blk t).view.emb (ix3 r j k)) = _
  rw [emb0_1 t r j k]

/-- Window 2's block, read at an entry, is the array as the region finds it at the same index. -/
theorem iblk0_2_apply (c : Dev nD) (t : Fin cfg0.N) (r : Fin 64) :
    (iblk0 V c 2 t : Vec Ideal S64 .f32) (ix1 r) = (V c main_arg3 : S64.Idx → EReal) (ix1 r) := by
  show (V c main_arg3 : S64.Idx → EReal) (((cfg0.win 2).blk t).view.emb (ix1 r)) = _
  rw [emb0_2 t r]

/-- Window 3's block, read at an entry, is the array as the region finds it at the same index. -/
theorem iblk0_3_apply (c : Dev nD) (t : Fin cfg0.N) (r : Fin 64) :
    (iblk0 V c 3 t : Vec Ideal S64 .f32) (ix1 r) = (V c main_arg4 : S64.Idx → EReal) (ix1 r) := by
  show (V c main_arg4 : S64.Idx → EReal) (((cfg0.win 3).blk t).view.emb (ix1 r)) = _
  rw [emb0_3 t r]

/-- Window 4's block, read at an entry, is the array as the region finds it at the same index. -/
theorem iblk0_4_apply (c : Dev nD) (t : Fin cfg0.N) (r : Fin 64) :
    (iblk0 V c 4 t : Vec Ideal S64 .f32) (ix1 r) = (V c main_arg5 : S64.Idx → EReal) (ix1 r) := by
  show (V c main_arg5 : S64.Idx → EReal) (((cfg0.win 4).blk t).view.emb (ix1 r)) = _
  rw [emb0_4 t r]

/-- Window 5's block, read at an entry, is the array as the region finds it at the same index. -/
theorem iblk0_5_apply (c : Dev nD) (t : Fin cfg0.N) (r : Fin 64) (j : Fin 128) :
    (iblk0 V c 5 t : Vec Ideal S64x128 .f32) (ix2 r j) = (V c main_arg6 : S64x128.Idx → EReal) (ix2 r j) := by
  show (V c main_arg6 : S64x128.Idx → EReal) (((cfg0.win 5).blk t).view.emb (ix2 r j)) = _
  rw [emb0_5 t r j]

/-- Window 6's block, read at an entry, is the array as the region finds it at the same index. -/
theorem iblk0_6_apply (c : Dev nD) (t : Fin cfg0.N) (r : Fin 128) :
    (iblk0 V c 6 t : Vec Ideal S128 .f32) (ix1 r) = (V c main_arg7 : S128.Idx → EReal) (ix1 r) := by
  show (V c main_arg7 : S128.Idx → EReal) (((cfg0.win 6).blk t).view.emb (ix1 r)) = _
  rw [emb0_6 t r]

/-- Window 7's block, read at an entry, is the array as the region finds it at the same index. -/
theorem iblk0_7_apply (c : Dev nD) (t : Fin cfg0.N) (r : Fin 128) (j : Fin 64) :
    (iblk0 V c 7 t : Vec Ideal S128x64 .f32) (ix2 r j) = (V c main_arg8 : S128x64.Idx → EReal) (ix2 r j) := by
  show (V c main_arg8 : S128x64.Idx → EReal) (((cfg0.win 7).blk t).view.emb (ix2 r j)) = _
  rw [emb0_7 t r j]

/-- Window 8's block, read at an entry, is the array as the region finds it at the same index. -/
theorem iblk0_8_apply (c : Dev nD) (t : Fin cfg0.N) (r : Fin 64) :
    (iblk0 V c 8 t : Vec Ideal S64 .f32) (ix1 r) = (V c main_arg9 : S64.Idx → EReal) (ix1 r) := by
  show (V c main_arg9 : S64.Idx → EReal) (((cfg0.win 8).blk t).view.emb (ix1 r)) = _
  rw [emb0_8 t r]

/-- Window 9's block, read at an entry, is the array as the region finds it at the same index. -/
theorem iblk0_9_apply (c : Dev nD) (t : Fin cfg0.N) (r : Fin 64) (j : Fin 128) :
    (iblk0 V c 9 t : Vec Ideal S64x128 .f32) (ix2 r j) = (V c main_arg10 : S64x128.Idx → EReal) (ix2 r j) := by
  show (V c main_arg10 : S64x128.Idx → EReal) (((cfg0.win 9).blk t).view.emb (ix2 r j)) = _
  rw [emb0_9 t r j]

/-- Window 10's block, read at an entry, is the array as the region finds it at the same index. -/
theorem iblk0_10_apply (c : Dev nD) (t : Fin cfg0.N) (r : Fin 128) :
    (iblk0 V c 10 t : Vec Ideal S128 .f32) (ix1 r) = (V c main_arg11 : S128.Idx → EReal) (ix1 r) := by
  show (V c main_arg11 : S128.Idx → EReal) (((cfg0.win 10).blk t).view.emb (ix1 r)) = _
  rw [emb0_10 t r]

/-- Window 11's block, read at an entry, is the array as the region finds it at the same index. -/
theorem iblk0_11_apply (c : Dev nD) (t : Fin cfg0.N) (r : Fin 128) (j : Fin 64) :
    (iblk0 V c 11 t : Vec Ideal S128x64 .f32) (ix2 r j) = (V c main_arg12 : S128x64.Idx → EReal) (ix2 r j) := by
  show (V c main_arg12 : S128x64.Idx → EReal) (((cfg0.win 11).blk t).view.emb (ix2 r j)) = _
  rw [emb0_11 t r j]

/-- Window 12's block, read at an entry, is the array as the region finds it at the same index. -/
theorem iblk0_12_apply (c : Dev nD) (t : Fin cfg0.N) (r : Fin 64) :
    (iblk0 V c 12 t : Vec Ideal S64 .f32) (ix1 r) = (V c main_arg13 : S64.Idx → EReal) (ix1 r) := by
  show (V c main_arg13 : S64.Idx → EReal) (((cfg0.win 12).blk t).view.emb (ix1 r)) = _
  rw [emb0_12 t r]

/-! ## What each grid point writes back, and the arrays after the last point -/

/-- Two perceptron rows agree when the rows, the normalisation's scale and bias and the layers' weights agree. -/
theorem mlpRow_congr {x x' sc sc' bi bi' : Fin 64 → EReal} {w1 w1' : Fin 64 → Fin 128 → EReal} {b1 b1' : Fin 128 → EReal}
    {w2 w2' : Fin 128 → Fin 64 → EReal} {b2 b2' : Fin 64 → EReal} (hx : x = x') (hsc : sc = sc') (hbi : bi = bi')
    (hw1 : w1 = w1') (hb1 : b1 = b1') (hw2 : w2 = w2') (hb2 : b2 = b2') (c : Fin 64) :
    Cert.Spec.mlpRow (Cert.Spec.lnRow x sc bi) w1 b1 w2 b2 c = Cert.Spec.mlpRow (Cert.Spec.lnRow x' sc' bi') w1' b1' w2' b2' c := by
  subst hx hsc hbi hw1 hb1 hw2 hb2; rfl

/-- Point `t` writes back block `t` of the `p` array: the perceptron with the first pair of layers on the normalised
    rows `1000 t` to `1000 t + 999` of the features. -/
theorem flushed13 (c : Dev nD) (t : Fin cfg0.N) :
    (dat0 V c).flushed 13 t = ((cfg0.win 13).blk t).view.read (Elt Ideal)
      (Cert.Spec.PArr (V c main_arg0) (V c main_arg3) (V c main_arg4) (V c main_arg6) (V c main_arg7) (V c main_arg8) (V c main_arg9)) := by
  show (cfg0.win 13).cut (grid0.coords t) ((dat0 V c).after 13 t) = _
  rw [after0_13]
  funext y
  obtain ⟨r, c', rfl⟩ : ∃ (r : Fin 1000) (c' : Fin 64), y = ix2 r c' := ⟨y 0, y 1, eq_ix2 y⟩
  show out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 r c')
    = Cert.Spec.PArr (V c main_arg0) (V c main_arg3) (V c main_arg4) (V c main_arg6) (V c main_arg7) (V c main_arg8) (V c main_arg9)
        (((cfg0.win 13).blk t).view.emb (ix2 r c'))
  refine (Cert.KernelIdeal.MlpBlock.p_block (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) r c').trans ?_
  rw [emb0_13 t r c']
  exact mlpRow_congr (funext fun j => iblk0_0_apply V c t r j) (funext fun j => iblk0_2_apply V c t j)
    (funext fun j => iblk0_3_apply V c t j) (funext fun j => funext fun k => iblk0_5_apply V c t j k)
    (funext fun k => iblk0_6_apply V c t k) (funext fun k => funext fun j => iblk0_7_apply V c t k j)
    (funext fun j => iblk0_8_apply V c t j) c'

/-- Every row of the `p` array is in the block of the point that holds its thousand. -/
theorem cover13 (i : S50000x64.Idx) :
    ∃ t : Fin cfg0.N, (cfg0.win 13).flush t = true ∧ i ∈ ((cfg0.win 13).blk t).view.set := by
  have hi0 : (i 0).val < 50000 := (i 0).isLt
  have hi1 : (i 1).val < 64 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨e0, e1⟩ := idx0_13 t
  refine ⟨t, flush0_13 t, ?_⟩
  show i ∈ ((View.whole main_v0_0).slice (win0_13.rect t)).set
  rw [View.set_slice_whole, Rect.mem_set_unit]
  intro a
  match a with
  | ⟨0, _⟩ => show win0_13.index t (0 : Fin 2) * 1000 ≤ (i 0).val ∧ (i 0).val < win0_13.index t (0 : Fin 2) * 1000 + 1000; omega
  | ⟨1, _⟩ => show win0_13.index t (1 : Fin 2) * 64 ≤ (i 1).val ∧ (i 1).val < win0_13.index t (1 : Fin 2) * 64 + 64; omega

/-- The `p` array after the last point. -/
theorem p_final (c : Dev nD) : (dat0 V c).arrAt 13 cfg0.N
    = Cert.Spec.PArr (V c main_arg0) (V c main_arg3) (V c main_arg4) (V c main_arg6) (V c main_arg7) (V c main_arg8) (V c main_arg9) :=
  (dat0 V c).arrAt_eq_of_cover 13 _ (fun t _ => flushed13 V c t) cover13

/-- Point `t` writes back block `t` of the `q` array: the same rows through the second pair of layers. -/
theorem flushed14 (c : Dev nD) (t : Fin cfg0.N) :
    (dat0 V c).flushed 14 t = ((cfg0.win 14).blk t).view.read (Elt Ideal)
      (Cert.Spec.PArr (V c main_arg0) (V c main_arg3) (V c main_arg4) (V c main_arg10) (V c main_arg11) (V c main_arg12) (V c main_arg13)) := by
  show (cfg0.win 14).cut (grid0.coords t) ((dat0 V c).after 14 t) = _
  rw [after0_14]
  funext y
  obtain ⟨r, c', rfl⟩ : ∃ (r : Fin 1000) (c' : Fin 64), y = ix2 r c' := ⟨y 0, y 1, eq_ix2 y⟩
  show out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 r c')
    = Cert.Spec.PArr (V c main_arg0) (V c main_arg3) (V c main_arg4) (V c main_arg10) (V c main_arg11) (V c main_arg12) (V c main_arg13)
        (((cfg0.win 14).blk t).view.emb (ix2 r c'))
  refine (Cert.KernelIdeal.MlpBlock.q_block (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) r c').trans ?_
  rw [emb0_14 t r c']
  exact mlpRow_congr (funext fun j => iblk0_0_apply V c t r j) (funext fun j => iblk0_2_apply V c t j)
    (funext fun j => iblk0_3_apply V c t j) (funext fun j => funext fun k => iblk0_9_apply V c t j k)
    (funext fun k => iblk0_10_apply V c t k) (funext fun k => funext fun j => iblk0_11_apply V c t k j)
    (funext fun j => iblk0_12_apply V c t j) c'

/-- Every row of the `q` array is in the block of the point that holds its thousand. -/
theorem cover14 (i : S50000x64.Idx) :
    ∃ t : Fin cfg0.N, (cfg0.win 14).flush t = true ∧ i ∈ ((cfg0.win 14).blk t).view.set := by
  have hi0 : (i 0).val < 50000 := (i 0).isLt
  have hi1 : (i 1).val < 64 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨e0, e1⟩ := idx0_14 t
  refine ⟨t, flush0_14 t, ?_⟩
  show i ∈ ((View.whole main_v0_1).slice (win0_14.rect t)).set
  rw [View.set_slice_whole, Rect.mem_set_unit]
  intro a
  match a with
  | ⟨0, _⟩ => show win0_14.index t (0 : Fin 2) * 1000 ≤ (i 0).val ∧ (i 0).val < win0_14.index t (0 : Fin 2) * 1000 + 1000; omega
  | ⟨1, _⟩ => show win0_14.index t (1 : Fin 2) * 64 ≤ (i 1).val ∧ (i 1).val < win0_14.index t (1 : Fin 2) * 64 + 64; omega

/-- The `q` array after the last point. -/
theorem q_final (c : Dev nD) : (dat0 V c).arrAt 14 cfg0.N
    = Cert.Spec.PArr (V c main_arg0) (V c main_arg3) (V c main_arg4) (V c main_arg10) (V c main_arg11) (V c main_arg12) (V c main_arg13) :=
  (dat0 V c).arrAt_eq_of_cover 14 _ (fun t _ => flushed14 V c t) cover14

/-- Point `t` writes back block `t` of the scaled vectors: the vectors of nodes `1000 t` to `1000 t + 999`, each
    entry times its channel's weight. -/
theorem flushed15 (c : Dev nD) (t : Fin cfg0.N) :
    (dat0 V c).flushed 15 t = ((cfg0.win 15).blk t).view.read (Elt Ideal) (Cert.Spec.VArr (V c main_arg1) (V c main_arg5)) := by
  show (cfg0.win 15).cut (grid0.coords t) ((dat0 V c).after 15 t) = _
  rw [after0_15]
  funext y
  obtain ⟨r, k, c', rfl⟩ : ∃ (r : Fin 1000) (k : Fin 3) (c' : Fin 64), y = ix3 r k c' := ⟨y 0, y 1, y 2, eq_ix3 y⟩
  show out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix3 r k c')
    = Cert.Spec.VArr (V c main_arg1) (V c main_arg5) (((cfg0.win 15).blk t).view.emb (ix3 r k c'))
  refine (Cert.KernelIdeal.MlpBlock.vecnorm_block (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) r k c').trans ?_
  rw [emb0_15 t r k c']
  exact congrArg₂ (· * ·) (iblk0_1_apply V c t r k c') (iblk0_4_apply V c t c')

/-- Every entry of the scaled vectors is in the block of the point that holds its node's thousand. -/
theorem cover15 (i : S50000x3x64.Idx) :
    ∃ t : Fin cfg0.N, (cfg0.win 15).flush t = true ∧ i ∈ ((cfg0.win 15).blk t).view.set := by
  have hi0 : (i 0).val < 50000 := (i 0).isLt
  have hi1 : (i 1).val < 3 := (i 1).isLt
  have hi2 : (i 2).val < 64 := (i 2).isLt
  have hN : cfg0.N = 50 := N_0
  obtain ⟨t, ht⟩ : ∃ t : Fin cfg0.N, t.val = (i 0).val / 1000 := ⟨⟨(i 0).val / 1000, by rw [hN]; omega⟩, rfl⟩
  obtain ⟨e0, e1, e2⟩ := idx0_15 t
  refine ⟨t, flush0_15 t, ?_⟩
  show i ∈ ((View.whole main_v0_2).slice (win0_15.rect t)).set
  rw [View.set_slice_whole, Rect.mem_set_unit]
  intro a
  match a with
  | ⟨0, _⟩ => show win0_15.index t (0 : Fin 3) * 1000 ≤ (i 0).val ∧ (i 0).val < win0_15.index t (0 : Fin 3) * 1000 + 1000; omega
  | ⟨1, _⟩ => show win0_15.index t (1 : Fin 3) * 3 ≤ (i 1).val ∧ (i 1).val < win0_15.index t (1 : Fin 3) * 3 + 3; omega
  | ⟨2, _⟩ => show win0_15.index t (2 : Fin 3) * 64 ≤ (i 2).val ∧ (i 2).val < win0_15.index t (2 : Fin 3) * 64 + 64; omega

/-- The scaled vectors after the last point. -/
theorem v_final (c : Dev nD) : (dat0 V c).arrAt 15 cfg0.N = Cert.Spec.VArr (V c main_arg1) (V c main_arg5) :=
  (dat0 V c).arrAt_eq_of_cover 15 _ (fun t _ => flushed15 V c t) cover15

end Cert.KernelIdeal.NodeArrays

end
-- ==== Proof.EdgeBlock.lean ====
/-
  One block of the edge kernel, entry by entry.

  The kernel's body works on a block of 1280 edges. It is given, per edge and channel, the receiver's `p` and the
  sender's `q` (`[1280, 64]` each), the sender's three vectors (`[1280, 3, 64]`) and the edge's 3×3 matrix flattened to
  nine columns (`[1280, 9]`). For each direction `i` it scales the three vectors by `q`, weights them by row `i` of the
  matrix (columns `3 i`, `3 i + 1`, `3 i + 2`, each spread over the 64 channels), adds the three products left to
  right, multiplies by `p`, and stores the `[1280, 64]` result as slab `i` of the `[1280, 3, 64]` output block.

  This file reads that block at one index `(e, i, c)`: it is `Cert.Spec.edge` of the four inputs at that edge, channel
  and direction (`edge_block`). The steps: a load through a slab's rectangle reads the block at the slab's direction
  (`ld_dir0` … `ld_dir2`); the unit axis of a slab is dropped and added back without moving anything (`drop_unit`,
  `add_unit`); a matrix column cut out and spread over the channels reads the column (`col_apply`); so each stored
  value at `(e, 0, c)` is the message of its direction (`pay_dir0` … `pay_dir2`); and the three stores land on three
  disjoint slabs, so each direction of the block holds its own store's value (`canon_dir0` … `canon_dir2`).
-/
import proofs.«118783_j62440234549687_1_alg».proof.Proof.Gen.KernelIdeal.Frame
import proofs.«118783_j62440234549687_1_alg».proof.Proof.Spec
import Idealize.ShloMosaic.Lib.ValueIdx
import Idealize.ShloMosaic.Lib.Pipeline.Value

noncomputable section

namespace Cert.KernelIdeal.EdgeBlock

open Idealize.ShloMosaic Idealize.ShloMosaic.ValueIdx

/-! ## Loads through the rectangles -/

/-- A load of the whole `[1280, 64]` block reads the block. -/
theorem ld_whole64 (x : Vec Ideal S1280x64 .f32) : View.ld x Gen.r1_0 = x :=
  View.ld_unit_zero (funext fun a => match a with | ⟨0, _⟩ => rfl | ⟨1, _⟩ => rfl) _ x

/-- A load of the whole `[1280, 9]` block reads the block. -/
theorem ld_whole9 (x : Vec Ideal S1280x9 .f32) : View.ld x Gen.r1_4 = x :=
  View.ld_unit_zero (funext fun a => match a with | ⟨0, _⟩ => rfl | ⟨1, _⟩ => rfl) _ x

/-- The slab of direction 0 of a `[1280, 3, 64]` block, at `(e, 0, c)`, is the block at `(e, 0, c)`. -/
theorem ld_dir0 (x : Vec Ideal S1280x3x64 .f32) (e : Fin 1280) (c : Fin 64) :
    View.ld x Gen.r1_1 (ix3 e 0 c) = x (ix3 e 0 c) := by
  show x (Gen.r1_1.idx (ix3 e 0 c)) = x (ix3 e 0 c)
  congr 1; funext a
  match a with
  | ⟨0, _⟩ => apply Fin.ext; show 0 + 1 * e.val = e.val; omega
  | ⟨1, _⟩ => apply Fin.ext; show 0 + 1 * 0 = 0; omega
  | ⟨2, _⟩ => apply Fin.ext; show 0 + 1 * c.val = c.val; omega

/-- The slab of direction 1, at `(e, 0, c)`, is the block at `(e, 1, c)`. -/
theorem ld_dir1 (x : Vec Ideal S1280x3x64 .f32) (e : Fin 1280) (c : Fin 64) :
    View.ld x Gen.r1_2 (ix3 e 0 c) = x (ix3 e 1 c) := by
  show x (Gen.r1_2.idx (ix3 e 0 c)) = x (ix3 e 1 c)
  congr 1; funext a
  match a with
  | ⟨0, _⟩ => apply Fin.ext; show 0 + 1 * e.val = e.val; omega
  | ⟨1, _⟩ => apply Fin.ext; show 1 + 1 * 0 = 1; omega
  | ⟨2, _⟩ => apply Fin.ext; show 0 + 1 * c.val = c.val; omega

/-- The slab of direction 2, at `(e, 0, c)`, is the block at `(e, 2, c)`. -/
theorem ld_dir2 (x : Vec Ideal S1280x3x64 .f32) (e : Fin 1280) (c : Fin 64) :
    View.ld x Gen.r1_3 (ix3 e 0 c) = x (ix3 e 2 c) := by
  show x (Gen.r1_3.idx (ix3 e 0 c)) = x (ix3 e 2 c)
  congr 1; funext a
  match a with
  | ⟨0, _⟩ => apply Fin.ext; show 0 + 1 * e.val = e.val; omega
  | ⟨1, _⟩ => apply Fin.ext; show 2 + 1 * 0 = 2; omega
  | ⟨2, _⟩ => apply Fin.ext; show 0 + 1 * c.val = c.val; omega

/-! ## The unit axis -/

/-- Dropping the unit axis: a `[1280, 1, 64]` value viewed `[1280, 64]` reads `(e, c)` at `(e, 0, c)`. -/
theorem drop_unit {α : Type} (v : S1280x1x64.Idx → α) (h : S1280x1x64.ShapeCasts S1280x64) (e : Fin 1280) (c : Fin 64) :
    shapeCast S1280x64 v h (ix2 e c) = v (ix3 e 0 c) :=
  shapeCast_apply v h (ix2 e c) (ix3 e 0 c) (by
    rw [Shape.rowMajor_val_two, Shape.rowMajor_val_three]
    show (e.val * 1 + 0) * 64 + c.val = e.val * 64 + c.val
    omega)

/-- Adding the unit axis back: a `[1280, 64]` value viewed `[1280, 1, 64]` reads `(e, 0, c)` at `(e, c)`. -/
theorem add_unit {α : Type} (v : S1280x64.Idx → α) (h : S1280x64.ShapeCasts S1280x1x64) (e : Fin 1280) (c : Fin 64) :
    shapeCast S1280x1x64 v h (ix3 e 0 c) = v (ix2 e c) :=
  shapeCast_apply v h (ix3 e 0 c) (ix2 e c) (by
    rw [Shape.rowMajor_val_two, Shape.rowMajor_val_three]
    show e.val * 64 + c.val = (e.val * 1 + 0) * 64 + c.val
    omega)

/-! ## A column of the matrix block, spread over the channels -/

/-- Column `n` of a `[1280, 9]` value, cut out as `[1280, 1]` and broadcast to `[1280, 64]`, reads at `(e, c)` the
    value at `(e, n)`, whatever the channel `c`. -/
theorem col_apply {α : Type} (m : S1280x9.Idx → α) (n : Nat) (hn : n < 9) (hs : S1280x9.Slices ![0, n] S1280x1)
    (hb : S1280x1.Broadcasts S1280x64) (e : Fin 1280) (c : Fin 64) :
    broadcastTo S1280x64 (extractStridedSlice S1280x1 ![0, n] m hs) hb (ix2 e c) = m (ix2 e ⟨n, hn⟩) := by
  refine (broadcastTo_apply _ hb (ix2 e c) (ix2 e 0) (fun a => match a with
    | ⟨0, _⟩ => rfl
    | ⟨1, _⟩ => rfl)).trans ?_
  exact extractStridedSlice_apply _ m hs (ix2 e 0) (ix2 e ⟨n, hn⟩) (fun a => match a with
    | ⟨0, _⟩ => by show e.val = 0 + e.val; omega
    | ⟨1, _⟩ => by show n = n + 0; omega)

/-! ## The three stored values at `(e, 0, c)` -/

/-- Direction 0: the value stored first. -/
theorem pay_dir0 (x0 x1 : Vec Ideal S1280x64 .f32) (x2 : Vec Ideal S1280x3x64 .f32) (x3 : Vec Ideal S1280x9 .f32)
    (e : Fin 1280) (c : Fin 64) :
    Gen.k1_pay9 (View.ld x0 Gen.r1_0) (View.ld x1 Gen.r1_0) (View.ld x2 Gen.r1_1) (View.ld x2 Gen.r1_2)
        (View.ld x2 Gen.r1_3) (View.ld x3 Gen.r1_4) (ix3 e 0 c)
      = Cert.Spec.edge (x0 (ix2 e c)) (x1 (ix2 e c)) (fun j => x2 (ix3 e j c))
          (fun j => x3 (ix2 e ⟨3 * 0 + j.val, by omega⟩)) := by
  unfold Gen.k1_pay9 Gen.k1_pay3 Gen.k1_pay5 Gen.k1_pay6 Gen.k1_pay7 Gen.k1_pay8 Gen.k1_pay4
  simp only [ld_whole64, ld_whole9, shapeCast_self]
  rw [add_unit]
  simp only [mulf_apply, addf_apply, drop_unit]
  rw [col_apply _ 0 (by omega), col_apply _ 1 (by omega), col_apply _ 2 (by omega), ld_dir0 x2 e c, ld_dir1 x2 e c, ld_dir2 x2 e c]
  rfl

/-- Direction 1: the value stored second (its first two products are added before the store's own part of the body). -/
theorem pay_dir1 (x0 x1 : Vec Ideal S1280x64 .f32) (x2 : Vec Ideal S1280x3x64 .f32) (x3 : Vec Ideal S1280x9 .f32)
    (e : Fin 1280) (c : Fin 64) :
    Gen.k1_pay1 (Gen.k1_pay3 (View.ld x0 Gen.r1_0))
        (Gen.k1_pay10 (View.ld x1 Gen.r1_0) (View.ld x2 Gen.r1_1) (View.ld x2 Gen.r1_2) (View.ld x3 Gen.r1_4))
        (Gen.k1_pay11 (View.ld x1 Gen.r1_0) (View.ld x2 Gen.r1_3) (View.ld x3 Gen.r1_4)) (ix3 e 0 c)
      = Cert.Spec.edge (x0 (ix2 e c)) (x1 (ix2 e c)) (fun j => x2 (ix3 e j c))
          (fun j => x3 (ix2 e ⟨3 * 1 + j.val, by omega⟩)) := by
  unfold Gen.k1_pay1 Gen.k1_pay10 Gen.k1_pay11 Gen.k1_pay3 Gen.k1_pay5 Gen.k1_pay6 Gen.k1_pay7 Gen.k1_pay8 Gen.k1_pay4
  simp only [ld_whole64, ld_whole9, shapeCast_self]
  rw [add_unit]
  simp only [mulf_apply, addf_apply, drop_unit]
  rw [col_apply _ 3 (by omega), col_apply _ 4 (by omega), col_apply _ 5 (by omega), ld_dir0 x2 e c, ld_dir1 x2 e c,
    ld_dir2 x2 e c]
  rfl

/-- Direction 2: the value stored last. -/
theorem pay_dir2 (x0 x1 : Vec Ideal S1280x64 .f32) (x2 : Vec Ideal S1280x3x64 .f32) (x3 : Vec Ideal S1280x9 .f32)
    (e : Fin 1280) (c : Fin 64) :
    Gen.k1_pay2 (Gen.k1_pay3 (View.ld x0 Gen.r1_0)) (Gen.k1_pay5 (View.ld x3 Gen.r1_4))
        (Gen.k1_pay6 (View.ld x1 Gen.r1_0) (View.ld x2 Gen.r1_1)) (Gen.k1_pay7 (View.ld x1 Gen.r1_0) (View.ld x2 Gen.r1_2))
        (Gen.k1_pay8 (View.ld x1 Gen.r1_0) (View.ld x2 Gen.r1_3)) (ix3 e 0 c)
      = Cert.Spec.edge (x0 (ix2 e c)) (x1 (ix2 e c)) (fun j => x2 (ix3 e j c))
          (fun j => x3 (ix2 e ⟨3 * 2 + j.val, by omega⟩)) := by
  unfold Gen.k1_pay2 Gen.k1_pay3 Gen.k1_pay5 Gen.k1_pay6 Gen.k1_pay7 Gen.k1_pay8 Gen.k1_pay4
  simp only [ld_whole64, ld_whole9, shapeCast_self]
  rw [add_unit]
  simp only [mulf_apply, addf_apply, drop_unit]
  rw [col_apply _ 6 (by omega), col_apply _ 7 (by omega), col_apply _ 8 (by omega), ld_dir0 x2 e c, ld_dir1 x2 e c,
    ld_dir2 x2 e c]
  rfl

/-! ## Where each store lands -/

/-- The slab index `(e, 0, c)` placed through the first store's rectangle is the block index `(e, 0, c)`. -/
theorem emb_dir0 (e : Fin 1280) (c : Fin 64) : Gen.r1_1.emb (ix3 e 0 c) = ix3 e 0 c := by
  funext a
  match a with
  | ⟨0, _⟩ => apply Fin.ext; show 0 + 1 * e.val = e.val; omega
  | ⟨1, _⟩ => apply Fin.ext; show 0 + 1 * 0 = 0; omega
  | ⟨2, _⟩ => apply Fin.ext; show 0 + 1 * c.val = c.val; omega

/-- Through the second store's rectangle it is `(e, 1, c)`. -/
theorem emb_dir1 (e : Fin 1280) (c : Fin 64) : Gen.r1_2.emb (ix3 e 0 c) = ix3 e 1 c := by
  funext a
  match a with
  | ⟨0, _⟩ => apply Fin.ext; show 0 + 1 * e.val = e.val; omega
  | ⟨1, _⟩ => apply Fin.ext; show 1 + 1 * 0 = 1; omega
  | ⟨2, _⟩ => apply Fin.ext; show 0 + 1 * c.val = c.val; omega

/-- Through the third store's rectangle it is `(e, 2, c)`. -/
theorem emb_dir2 (e : Fin 1280) (c : Fin 64) : Gen.r1_3.emb (ix3 e 0 c) = ix3 e 2 c := by
  funext a
  match a with
  | ⟨0, _⟩ => apply Fin.ext; show 0 + 1 * e.val = e.val; omega
  | ⟨1, _⟩ => apply Fin.ext; show 2 + 1 * 0 = 2; omega
  | ⟨2, _⟩ => apply Fin.ext; show 0 + 1 * c.val = c.val; omega

/-- The three stores as a list of pieces, last store first, over any three stored values. -/
abbrev pieces (p2 p1 p0 : Vec Ideal S1280x1x64 .f32) : List (View.Piece (Elt Ideal) S1280x3x64 .f32) :=
  [⟨Gen.r1_3, p2⟩, ⟨Gen.r1_2, p1⟩, ⟨Gen.r1_1, p0⟩]

/-- An index of direction below 2 is not under the third store. -/
theorem not_mem_dir2 (p : Vec Ideal S1280x1x64 .f32) (e : Fin 1280) (i : Fin 3) (c : Fin 64) (hi : i.val < 2) :
    ix3 e i c ∉ (⟨Gen.r1_3, p⟩ : View.Piece (Elt Ideal) S1280x3x64 .f32).1.set := by
  show ix3 e i c ∉ Gen.r1_3.set
  rw [Rect.mem_set_unit]
  intro h
  have h1 := h ⟨1, by decide⟩
  have h2 : 2 ≤ i.val := h1.1
  omega

/-- An index of direction below 1 is not under the second store. -/
theorem not_mem_dir1 (p : Vec Ideal S1280x1x64 .f32) (e : Fin 1280) (i : Fin 3) (c : Fin 64) (hi : i.val < 1) :
    ix3 e i c ∉ (⟨Gen.r1_2, p⟩ : View.Piece (Elt Ideal) S1280x3x64 .f32).1.set := by
  show ix3 e i c ∉ Gen.r1_2.set
  rw [Rect.mem_set_unit]
  intro h
  have h1 := h ⟨1, by decide⟩
  have h2 : 1 ≤ i.val := h1.1
  omega

/-- After the three stores, direction 2 of the block holds the third stored value. -/
theorem canon_dir2 (p2 p1 p0 : Vec Ideal S1280x1x64 .f32) (e : Fin 1280) (c : Fin 64) :
    View.canon (pieces p2 p1 p0) (ix3 e 2 c) = p2 (ix3 e 0 c) := by
  rw [← emb_dir2 e c]
  exact View.canon_cons_emb Gen.r1_3 p2 _ (ix3 e 0 c)

/-- Direction 1 holds the second stored value: the third store does not reach it. -/
theorem canon_dir1 (p2 p1 p0 : Vec Ideal S1280x1x64 .f32) (e : Fin 1280) (c : Fin 64) :
    View.canon (pieces p2 p1 p0) (ix3 e 1 c) = p1 (ix3 e 0 c) := by
  rw [View.canon_cons_of_not_mem _ _ (not_mem_dir2 p2 e 1 c (by decide)), ← emb_dir1 e c]
  exact View.canon_cons_emb Gen.r1_2 p1 _ (ix3 e 0 c)

/-- Direction 0 holds the first stored value: neither later store reaches it. -/
theorem canon_dir0 (p2 p1 p0 : Vec Ideal S1280x1x64 .f32) (e : Fin 1280) (c : Fin 64) :
    View.canon (pieces p2 p1 p0) (ix3 e 0 c) = p0 (ix3 e 0 c) := by
  rw [View.canon_cons_of_not_mem _ _ (not_mem_dir2 p2 e 0 c (by decide)),
    View.canon_cons_of_not_mem _ _ (not_mem_dir1 p1 e 0 c (by decide))]
  have h := View.canon_cons_emb Gen.r1_1 p0 ([] : List (View.Piece (Elt Ideal) S1280x3x64 .f32)) (ix3 e 0 c)
  rw [emb_dir0 e c] at h
  exact h

/-! ## The block the body leaves -/

/-- What the edge kernel's body leaves in its output block, entry by entry: at edge `e`, direction `i` and channel `c`,
    the message `p · ((m₀ · (q · v₀) + m₁ · (q · v₁)) + m₂ · (q · v₂))` of the edge's `p` and `q` at the channel, the
    sender's three vectors at the channel and row `i` of the edge's matrix (columns `3 i … 3 i + 2` of its nine). -/
theorem edge_block (x0 x1 : Vec Ideal S1280x64 .f32) (x2 : Vec Ideal S1280x3x64 .f32) (x3 : Vec Ideal S1280x9 .f32)
    (e : Fin 1280) (i : Fin 3) (c : Fin 64) :
    Gen.out1_4 x0 x1 x2 x3 (ix3 e i c)
      = Cert.Spec.edge (x0 (ix2 e c)) (x1 (ix2 e c)) (fun j => x2 (ix3 e j c))
          (fun j => x3 (ix2 e ⟨3 * i.val + j.val, by omega⟩)) := by
  unfold Gen.out1_4
  match i with
  | ⟨0, _⟩ => exact (canon_dir0 _ _ _ e c).trans (pay_dir0 x0 x1 x2 x3 e c)
  | ⟨1, _⟩ => exact (canon_dir1 _ _ _ e c).trans (pay_dir1 x0 x1 x2 x3 e c)
  | ⟨2, _⟩ => exact (canon_dir2 _ _ _ e c).trans (pay_dir2 x0 x1 x2 x3 e c)

end Cert.KernelIdeal.EdgeBlock

end
-- ==== Proof.EdgeArrays.lean ====
/-
  From the edge kernel's blocks to its output array.

  The edge kernel runs over 625 points; point `t` works on edges `1280 t … 1280 t + 1279`: it is given block `t` of
  the gathered `p` and `q` (`[800000, 64]`), of the gathered vectors (`[800000, 3, 64]`) and of the edges' matrices
  flattened to nine columns (`[800000, 9]`), and writes back block `t` of the `[800000, 3, 64]` output. Entry by entry,
  what its body leaves in the output block is the message `Cert.Spec.edge` of the four input blocks
  (`Cert.KernelIdeal.EdgeBlock.edge_block`).

  Here: `EArr9`, the array of messages over the flattened matrices, which is the array of messages over the 3×3 matrices
  once these are flattened row by row (`EArr9_reshape`: entry `(i, j)` sits in column `3 i + j`); where each window's
  block `t` sits in its array (`idx_facts1`, `emb_p` … `emb_out`: at row offset `1280 t`, no offset on the other axes);
  hence what point `t` writes back is block `t` of `EArr9` of the four arrays (`flushed1`); every entry of the output
  array lies in the block of point `(its edge) / 1280` (`mem_blk`, `cover1`); so after the run the output array holds
  `EArr9` of the four arrays (`final1`).
-/
import proofs.«118783_j62440234549687_1_alg».proof.Proof.Gen.KernelIdeal.Frame
import proofs.«118783_j62440234549687_1_alg».proof.Proof.EdgeBlock
import proofs.«118783_j62440234549687_1_alg».proof.Proof.Arrays
import Idealize.ShloMosaic.Lib.ValueIdx
import Idealize.ShloMosaic.Lib.Pipeline.Value

set_option maxRecDepth 16384

noncomputable section

namespace Cert.KernelIdeal.EdgeArrays

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-- The edge messages over the matrices flattened to nine columns: entry `(e, i, c)` is `Cert.Spec.edge` of edge `e`'s
    `p` and `q` at channel `c`, its three vectors at channel `c`, and columns `3 i`, `3 i + 1`, `3 i + 2` of its nine. -/
def EArr9 (p q : S800000x64.Idx → EReal) (v : S800000x3x64.Idx → EReal) (im : S800000x9.Idx → EReal) :
    S800000x3x64.Idx → EReal := fun y =>
  Cert.Spec.edge (p (ix2 (y 0) (y 2))) (q (ix2 (y 0) (y 2))) (fun j => v (ix3 (y 0) j (y 2)))
    (fun j => im (ix2 (y 0) ⟨3 * (y 1).val + j.val, by
      have h1 : (y 1).val < 3 := (y 1).isLt
      have := j.isLt
      omega⟩))

/-- Flattening the 3×3 matrices row by row puts entry `(i, j)` in column `3 i + j`: the messages over the flattened
    matrices are the messages over the matrices. -/
theorem EArr9_reshape (p q : S800000x64.Idx → EReal) (v : S800000x3x64.Idx → EReal) (im : S800000x3x3.Idx → EReal)
    (h : S800000x3x3.ShapeCasts S800000x9) :
    EArr9 p q v (shapeCast S800000x9 im h) = Cert.Spec.EArr p q v im := by
  funext y
  obtain ⟨e, i, c, rfl⟩ : ∃ (e : Fin 800000) (i : Fin 3) (c : Fin 64), y = ix3 e i c := ⟨y 0, y 1, y 2, eq_ix3 y⟩
  unfold EArr9 Cert.Spec.EArr
  congr 1
  funext j
  refine shapeCast_apply im h _ (ix3 e i j) ?_
  rw [Shape.rowMajor_val_two, Shape.rowMajor_val_three]
  show (e.val * 3 + i.val) * 3 + j.val = e.val * 9 + (3 * i.val + j.val)
  omega

/-- The windows' block indices over the grid: at point `t` every window is at block `t` along the edges and block 0
    along its other axes. -/
theorem idx_facts1 : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 3) = t.val ∧ win1_2.index t (1 : Fin 3) = 0 ∧ win1_2.index t (2 : Fin 3) = 0
  ∧ win1_3.index t (0 : Fin 2) = t.val ∧ win1_3.index t (1 : Fin 2) = 0
  ∧ win1_4.index t (0 : Fin 3) = t.val ∧ win1_4.index t (1 : Fin 3) = 0 ∧ win1_4.index t (2 : Fin 3) = 0 :=
  (by decide +kernel : ∀ t : Fin grid1.N, _)

/-- A point of the grid is below 625. -/
theorem point_lt (t : Fin cfg1.N) : t.val < 625 := by
  have h := t.isLt
  have hN : cfg1.N = 625 := N_1
  omega

/-- Where the blocks of `p` sit: entry `(e, c)` of block `t` is entry `(1280 t + e, c)` of the array. -/
theorem emb_p (t : Fin cfg1.N) (e : Fin 1280) (c : Fin 64) (h : t.val * 1280 + e.val < 800000) :
    ((cfg1.win 0).blk t).view.emb (ix2 e c) = ix2 (⟨t.val * 1280 + e.val, h⟩ : Fin 800000) c := by
  obtain ⟨f00, f01, -⟩ := idx_facts1 t
  funext a; apply Fin.ext
  match a with
  | ⟨0, _⟩ => show win1_0.index t (0 : Fin 2) * 1280 + 1 * e.val = t.val * 1280 + e.val; omega
  | ⟨1, _⟩ => show win1_0.index t (1 : Fin 2) * 64 + 1 * c.val = c.val; omega

/-- Where the blocks of `q` sit: as those of `p`. -/
theorem emb_q (t : Fin cfg1.N) (e : Fin 1280) (c : Fin 64) (h : t.val * 1280 + e.val < 800000) :
    ((cfg1.win 1).blk t).view.emb (ix2 e c) = ix2 (⟨t.val * 1280 + e.val, h⟩ : Fin 800000) c := by
  obtain ⟨-, -, f10, f11, -⟩ := idx_facts1 t
  funext a; apply Fin.ext
  match a with
  | ⟨0, _⟩ => show win1_1.index t (0 : Fin 2) * 1280 + 1 * e.val = t.val * 1280 + e.val; omega
  | ⟨1, _⟩ => show win1_1.index t (1 : Fin 2) * 64 + 1 * c.val = c.val; omega

/-- Where the blocks of the vectors sit: entry `(e, j, c)` of block `t` is entry `(1280 t + e, j, c)` of the array. -/
theorem emb_v (t : Fin cfg1.N) (e : Fin 1280) (j : Fin 3) (c : Fin 64) (h : t.val * 1280 + e.val < 800000) :
    ((cfg1.win 2).blk t).view.emb (ix3 e j c) = ix3 (⟨t.val * 1280 + e.val, h⟩ : Fin 800000) j c := by
  obtain ⟨-, -, -, -, f20, f21, f22, -⟩ := idx_facts1 t
  funext a; apply Fin.ext
  match a with
  | ⟨0, _⟩ => show win1_2.index t (0 : Fin 3) * 1280 + 1 * e.val = t.val * 1280 + e.val; omega
  | ⟨1, _⟩ => show win1_2.index t (1 : Fin 3) * 3 + 1 * j.val = j.val; omega
  | ⟨2, _⟩ => show win1_2.index t (2 : Fin 3) * 64 + 1 * c.val = c.val; omega

/-- Where the blocks of the flattened matrices sit: entry `(e, k)` of block `t` is entry `(1280 t + e, k)` of the array. -/
theorem emb_m (t : Fin cfg1.N) (e : Fin 1280) (k : Fin 9) (h : t.val * 1280 + e.val < 800000) :
    ((cfg1.win 3).blk t).view.emb (ix2 e k) = ix2 (⟨t.val * 1280 + e.val, h⟩ : Fin 800000) k := by
  obtain ⟨-, -, -, -, -, -, -, f30, f31, -⟩ := idx_facts1 t
  funext a; apply Fin.ext
  match a with
  | ⟨0, _⟩ => show win1_3.index t (0 : Fin 2) * 1280 + 1 * e.val = t.val * 1280 + e.val; omega
  | ⟨1, _⟩ => show win1_3.index t (1 : Fin 2) * 9 + 1 * k.val = k.val; omega

/-- Where the output's blocks sit: entry `(e, i, c)` of block `t` is entry `(1280 t + e, i, c)` of the array. -/
theorem emb_out (t : Fin cfg1.N) (e : Fin 1280) (i : Fin 3) (c : Fin 64) (h : t.val * 1280 + e.val < 800000) :
    ((cfg1.win 4).blk t).view.emb (ix3 e i c) = ix3 (⟨t.val * 1280 + e.val, h⟩ : Fin 800000) i c := by
  obtain ⟨-, -, -, -, -, -, -, -, -, f40, f41, f42⟩ := idx_facts1 t
  funext a; apply Fin.ext
  match a with
  | ⟨0, _⟩ => show win1_4.index t (0 : Fin 3) * 1280 + 1 * e.val = t.val * 1280 + e.val; omega
  | ⟨1, _⟩ => show win1_4.index t (1 : Fin 3) * 3 + 1 * i.val = i.val; omega
  | ⟨2, _⟩ => show win1_4.index t (2 : Fin 3) * 64 + 1 * c.val = c.val; omega

/-- What point `t` writes back is block `t` of the messages of the four arrays as the region finds them. -/
theorem flushed1 (c : Dev nD) (t : Fin cfg1.N) :
    (dat1 V c).flushed 4 t = ((cfg1.win 4).blk t).view.read (Elt Ideal)
      (EArr9 (V c main_v7) (V c main_v14) (V c main_v21) (V c main_v22)) := by
  show (cfg1.win 4).cut (grid1.coords t) ((dat1 V c).after 4 t) = _
  rw [after1_4]
  funext y
  obtain ⟨e, i, c', rfl⟩ : ∃ (e : Fin 1280) (i : Fin 3) (c' : Fin 64), y = ix3 e i c' := ⟨y 0, y 1, y 2, eq_ix3 y⟩
  show out1_4 (iblk1 V c 0 t) (iblk1 V c 1 t) (iblk1 V c 2 t) (iblk1 V c 3 t) (ix3 e i c')
    = EArr9 (V c main_v7) (V c main_v14) (V c main_v21) (V c main_v22) (((cfg1.win 4).blk t).view.emb (ix3 e i c'))
  refine (Cert.KernelIdeal.EdgeBlock.edge_block (iblk1 V c 0 t) (iblk1 V c 1 t) (iblk1 V c 2 t) (iblk1 V c 3 t) e i c').trans ?_
  have ht := point_lt t
  have hT : t.val * 1280 + e.val < 800000 := by have := e.isLt; omega
  rw [emb_out t e i c' hT]
  have e0 : iblk1 V c 0 t (ix2 e c') = V c main_v7 (ix2 (⟨t.val * 1280 + e.val, hT⟩ : Fin 800000) c') := by
    show V c main_v7 (((cfg1.win 0).blk t).view.emb (ix2 e c')) = _
    rw [emb_p t e c' hT]
  have e1 : iblk1 V c 1 t (ix2 e c') = V c main_v14 (ix2 (⟨t.val * 1280 + e.val, hT⟩ : Fin 800000) c') := by
    show V c main_v14 (((cfg1.win 1).blk t).view.emb (ix2 e c')) = _
    rw [emb_q t e c' hT]
  have e2 : (fun j : Fin 3 => iblk1 V c 2 t (ix3 e j c'))
      = fun j : Fin 3 => V c main_v21 (ix3 (⟨t.val * 1280 + e.val, hT⟩ : Fin 800000) j c') := by
    funext j
    show V c main_v21 (((cfg1.win 2).blk t).view.emb (ix3 e j c')) = _
    rw [emb_v t e j c' hT]
  have e3 : (fun j : Fin 3 => iblk1 V c 3 t (ix2 e ⟨3 * i.val + j.val, by omega⟩))
      = fun j : Fin 3 => V c main_v22 (ix2 (⟨t.val * 1280 + e.val, hT⟩ : Fin 800000) ⟨3 * i.val + j.val, by omega⟩) := by
    funext j
    show V c main_v22 (((cfg1.win 3).blk t).view.emb (ix2 e ⟨3 * i.val + j.val, _⟩)) = _
    rw [emb_m t e _ hT]
  rw [e0, e1, e2, e3]
  rfl

/-- An index of the output array is in point `t`'s block iff each coordinate is in the block's range on its axis. -/
theorem mem_blk (t : Fin cfg1.N) (i : S800000x3x64.Idx) :
    i ∈ ((cfg1.win 4).blk t).view.set ↔ ∀ a : Fin 3, win1_4.index t a * S1280x3x64.size a ≤ (i a).val
      ∧ (i a).val < win1_4.index t a * S1280x3x64.size a + S1280x3x64.size a := by
  show i ∈ ((View.whole main_v23).slice (win1_4.rect t)).set ↔ _
  rw [View.set_slice_whole, Rect.mem_set_unit]
  exact Iff.rfl

/-- Every entry of the output array is in some point's block: edge `n` is in block `n / 1280`. -/
theorem cover1 (i : S800000x3x64.Idx) :
    ∃ t : Fin cfg1.N, (cfg1.win 4).flush t = true ∧ i ∈ ((cfg1.win 4).blk t).view.set := by
  have hi0 : (i 0).val < 800000 := (i 0).isLt
  have hi1 : (i 1).val < 3 := (i 1).isLt
  have hi2 : (i 2).val < 64 := (i 2).isLt
  have hN : cfg1.N = 625 := N_1
  obtain ⟨t, htv⟩ : ∃ t : Fin cfg1.N, t.val = (i 0).val / 1280 := ⟨⟨(i 0).val / 1280, by rw [hN]; omega⟩, rfl⟩
  obtain ⟨-, -, -, -, -, -, -, -, -, f40, f41, f42⟩ := idx_facts1 t
  refine ⟨t, flush1_4 t, ?_⟩
  rw [mem_blk]
  intro a
  match a with
  | ⟨0, _⟩ =>
    show win1_4.index t (0 : Fin 3) * 1280 ≤ (i 0).val ∧ (i 0).val < win1_4.index t (0 : Fin 3) * 1280 + 1280
    omega
  | ⟨1, _⟩ =>
    show win1_4.index t (1 : Fin 3) * 3 ≤ (i 1).val ∧ (i 1).val < win1_4.index t (1 : Fin 3) * 3 + 3
    omega
  | ⟨2, _⟩ =>
    show win1_4.index t (2 : Fin 3) * 64 ≤ (i 2).val ∧ (i 2).val < win1_4.index t (2 : Fin 3) * 64 + 64
    omega

/-- The output array after the run holds the messages of the four arrays as the region finds them. -/
theorem final1 (c : Dev nD) :
    (dat1 V c).arrAt 4 cfg1.N = EArr9 (V c main_v7) (V c main_v14) (V c main_v21) (V c main_v22) :=
  (dat1 V c).arrAt_eq_of_cover 4 _ (fun t _ => flushed1 V c t) cover1

end Cert.KernelIdeal.EdgeArrays

end
-- ==== Proof.KernelValue.lean ====
/-
  The idealized kernel's result is the reference's last stage, as one function of the sixteen argument arrays.

  Read backwards from the result buffer at the last boundary. The host's scatter-add puts the messages into the
  receivers' rows of a zero array. The messages are what the edge grid's write-backs fold to: entry `(e, i, c)` is the
  edge function of the three gathered arrays and of the 3×3 matrices, which the edge grid reads through the host's
  reshape to nine columns (position `3 i + j` of a flattened row is entry `(i, j)`). The gathered arrays are the node
  grid's three outputs — the two perceptron arrays and the scaled vectors, each a whole-array function of the arguments —
  gathered at the receivers and at the senders after the host's index fix-up. An argument no stretch writes is read back
  to the launch memory. On the reference's side the same gathers, fix-up and scatter are applied to arrays already shown
  to be those same whole-array functions, so the two terms agree by unfolding the two programs' spellings.
-/
import proofs.«118783_j62440234549687_1_alg».proof.Proof.Gen.KernelIdeal.Frame
import proofs.«118783_j62440234549687_1_alg».proof.Proof.Arrays
import proofs.«118783_j62440234549687_1_alg».proof.Proof.RefArrays
import proofs.«118783_j62440234549687_1_alg».proof.Proof.NodeArrays
import proofs.«118783_j62440234549687_1_alg».proof.Proof.EdgeArrays
import Idealize.ShloMosaic.Lib.StableHlo.Run

set_option maxRecDepth 16384

noncomputable section

namespace Cert.KernelIdeal.KernelValue

open Idealize.ShloMosaic Idealize.ShloMosaic.TcCoe Idealize.SL.Sem Idealize.ShloMosaic.StableHlo Idealize.ShloMosaic.ValueIdx
open Idealize.ShloMosaic.Pipeline (Dat Cfg Window)
open Cert.KernelIdeal Cert.KernelIdeal.Gen Cert.KernelIdeal.NodeArrays Cert.KernelIdeal.EdgeArrays

variable (m : (ℓ : Loc nD τ sig) → Buf (Elt Ideal) ℓ) (ρ : Dev nD → PrngReg)

/-! ## After the node grid -/

/-- The node grid leaves an argument that is none of its operands as launched. -/
theorem W1_arg2 (c : Dev nD) : W1 m ρ c (Proc.devRef .tc main_arg2) = m ((c : Thread nD τ).loc main_arg2) :=
  W1_of_ne m ρ c main_arg2 (by decide)
theorem W1_arg14 (c : Dev nD) : W1 m ρ c (Proc.devRef .tc main_arg14) = m ((c : Thread nD τ).loc main_arg14) :=
  W1_of_ne m ρ c main_arg14 (by decide)
theorem W1_arg15 (c : Dev nD) : W1 m ρ c (Proc.devRef .tc main_arg15) = m ((c : Thread nD τ).loc main_arg15) :=
  W1_of_ne m ρ c main_arg15 (by decide)

/-- Its first output, as the gathers find it: the perceptron array `p`. -/
theorem W1_p (c : Dev nD) : W1 m ρ c (Proc.devRef .tc main_v0_0)
    = Cert.Spec.PArr (m ((c : Thread nD τ).loc main_arg0)) (m ((c : Thread nD τ).loc main_arg3)) (m ((c : Thread nD τ).loc main_arg4))
        (m ((c : Thread nD τ).loc main_arg6)) (m ((c : Thread nD τ).loc main_arg7)) (m ((c : Thread nD τ).loc main_arg8)) (m ((c : Thread nD τ).loc main_arg9)) :=
  (W1_arr m ρ c 13).trans (p_final (V0 m ρ) c)
/-- Its second output: the perceptron array `q`. -/
theorem W1_q (c : Dev nD) : W1 m ρ c (Proc.devRef .tc main_v0_1)
    = Cert.Spec.PArr (m ((c : Thread nD τ).loc main_arg0)) (m ((c : Thread nD τ).loc main_arg3)) (m ((c : Thread nD τ).loc main_arg4))
        (m ((c : Thread nD τ).loc main_arg10)) (m ((c : Thread nD τ).loc main_arg11)) (m ((c : Thread nD τ).loc main_arg12)) (m ((c : Thread nD τ).loc main_arg13)) :=
  (W1_arr m ρ c 14).trans (q_final (V0 m ρ) c)
/-- Its third output: the scaled vectors. -/
theorem W1_v (c : Dev nD) : W1 m ρ c (Proc.devRef .tc main_v0_2)
    = Cert.Spec.VArr (m ((c : Thread nD τ).loc main_arg1)) (m ((c : Thread nD τ).loc main_arg5)) :=
  (W1_arr m ρ c 15).trans (v_final (V0 m ρ) c)

/-! ## After the gathers -/

/-- The gathers leave the receivers' indices as launched. -/
theorem W2_arg15 (c : Dev nD) : W2 m ρ c (Proc.devRef .tc main_arg15) = m ((c : Thread nD τ).loc main_arg15) := by
  show StableHlo.after hostOps1 (W1 m ρ c) (Proc.devRef .tc main_arg15) = _
  dsimp only [hostOps1]
  after_results_simp
  exact W1_arg15 m ρ c

/-- The host's index fix-up before a gather: a negative index has the number of nodes added; then a unit axis. -/
def fixIdx (x : (⟨S800000, .i32⟩ : BufTy).Contents (Elt Ideal)) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- `p` gathered at the receivers. -/
theorem W2_v7 (c : Dev nD) : W2 m ρ c (Proc.devRef .tc main_v7)
    = Host.gather gather_S50000x64_S800000x1_S800000x64_1_0_n_n_0_1_164 (Cert.Spec.PArr (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (fixIdx (m ((c : Thread nD τ).loc main_arg15))) := by
  show StableHlo.after hostOps1 (W1 m ρ c) (Proc.devRef .tc main_v7) = _
  dsimp only [hostOps1]
  after_results_simp
  rw [W1_p, W1_arg15]
  rfl
/-- `q` gathered at the senders. -/
theorem W2_v14 (c : Dev nD) : W2 m ρ c (Proc.devRef .tc main_v14)
    = Host.gather gather_S50000x64_S800000x1_S800000x64_1_0_n_n_0_1_164 (Cert.Spec.PArr (m ((c : Thread nD τ).loc main_arg0)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg13))) (fixIdx (m ((c : Thread nD τ).loc main_arg14))) := by
  show StableHlo.after hostOps1 (W1 m ρ c) (Proc.devRef .tc main_v14) = _
  dsimp only [hostOps1]
  after_results_simp
  rw [W1_q, W1_arg14]
  rfl
/-- The scaled vectors gathered at the senders. -/
theorem W2_v21 (c : Dev nD) : W2 m ρ c (Proc.devRef .tc main_v21)
    = Host.gather gather_S50000x3x64_S800000x1_S800000x3x64_12_0_n_n_0_1_1364 (Cert.Spec.VArr (m ((c : Thread nD τ).loc main_arg1)) (m ((c : Thread nD τ).loc main_arg5))) (fixIdx (m ((c : Thread nD τ).loc main_arg14))) := by
  show StableHlo.after hostOps1 (W1 m ρ c) (Proc.devRef .tc main_v21) = _
  dsimp only [hostOps1]
  after_results_simp
  rw [W1_v, W1_arg14]
  rfl
/-- The 3×3 matrices flattened to nine columns. -/
theorem W2_v22 (c : Dev nD) : W2 m ρ c (Proc.devRef .tc main_v22)
    = shapeCast S800000x9 (m ((c : Thread nD τ).loc main_arg2)) shapeCasts_S800000x3x3_S800000x9 := by
  show StableHlo.after hostOps1 (W1 m ρ c) (Proc.devRef .tc main_v22) = _
  dsimp only [hostOps1]
  after_results_simp
  rw [W1_arg2]
  rfl

/-! ## After the edge grid -/

/-- The edge grid leaves the receivers' indices as launched. -/
theorem W3_arg15 (c : Dev nD) : W3 m ρ c (Proc.devRef .tc main_arg15) = m ((c : Thread nD τ).loc main_arg15) :=
  (W3_of_ne m ρ c main_arg15 (by decide)).trans (W2_arg15 m ρ c)

/-- The messages: the edge function of the gathered arrays and the 3×3 matrices. -/
theorem W3_v23 (c : Dev nD) : W3 m ρ c (Proc.devRef .tc main_v23) = (Cert.Spec.EArr (Host.gather gather_S50000x64_S800000x1_S800000x64_1_0_n_n_0_1_164 (Cert.Spec.PArr (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (fixIdx (m ((c : Thread nD τ).loc main_arg15))))
        (Host.gather gather_S50000x64_S800000x1_S800000x64_1_0_n_n_0_1_164 (Cert.Spec.PArr (m ((c : Thread nD τ).loc main_arg0)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg13))) (fixIdx (m ((c : Thread nD τ).loc main_arg14))))
        (Host.gather gather_S50000x3x64_S800000x1_S800000x3x64_12_0_n_n_0_1_1364 (Cert.Spec.VArr (m ((c : Thread nD τ).loc main_arg1)) (m ((c : Thread nD τ).loc main_arg5))) (fixIdx (m ((c : Thread nD τ).loc main_arg14)))) (m ((c : Thread nD τ).loc main_arg2))) := by
  rw [show W3 m ρ c (Proc.devRef .tc main_v23) = (dat1 (V2 m ρ) c).arrAt 4 cfg1.N from W3_arr m ρ c 4, final1 (V2 m ρ) c]
  show EArr9 (W2 m ρ c (Proc.devRef .tc main_v7)) (W2 m ρ c (Proc.devRef .tc main_v14)) (W2 m ρ c (Proc.devRef .tc main_v21)) (W2 m ρ c (Proc.devRef .tc main_v22)) = _
  rw [W2_v7, W2_v14, W2_v21, W2_v22, EArr9_reshape]

/-! ## The result -/

/-- The result buffer: the messages scatter-added into a zero array at the receivers' rows. -/
theorem result_eq (c : Dev nD) : W4 m ρ c (Proc.devRef .tc main_v26)
    = Host.scatterAdd (F := Ideal) scatter_S50000x3x64_S800000x1_S800000x3x64_12_0_0_1
        (broadcastInDim S50000x3x64 ![] bcast_S_S50000x3x64 (constant (F := Ideal) S_ .f32 0x00000000#32))
        (broadcastInDim S800000x1 ![0] bcast_S800000_S800000x1_0 (m ((c : Thread nD τ).loc main_arg15))) (Cert.Spec.EArr (Host.gather gather_S50000x64_S800000x1_S800000x64_1_0_n_n_0_1_164 (Cert.Spec.PArr (m ((c : Thread nD τ).loc main_arg0)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9))) (fixIdx (m ((c : Thread nD τ).loc main_arg15))))
        (Host.gather gather_S50000x64_S800000x1_S800000x64_1_0_n_n_0_1_164 (Cert.Spec.PArr (m ((c : Thread nD τ).loc main_arg0)) (m ((c : Thread nD τ).loc main_arg3)) (m ((c : Thread nD τ).loc main_arg4)) (m ((c : Thread nD τ).loc main_arg10)) (m ((c : Thread nD τ).loc main_arg11)) (m ((c : Thread nD τ).loc main_arg12)) (m ((c : Thread nD τ).loc main_arg13))) (fixIdx (m ((c : Thread nD τ).loc main_arg14))))
        (Host.gather gather_S50000x3x64_S800000x1_S800000x3x64_12_0_n_n_0_1_1364 (Cert.Spec.VArr (m ((c : Thread nD τ).loc main_arg1)) (m ((c : Thread nD τ).loc main_arg5))) (fixIdx (m ((c : Thread nD τ).loc main_arg14)))) (m ((c : Thread nD τ).loc main_arg2))) := by
  show StableHlo.after hostOps2 (W3 m ρ c) (Proc.devRef .tc main_v26) = _
  dsimp only [hostOps2]
  after_results
  rw [W3_arg15, W3_v23]

open Cert.ReferenceIdeal.Read in
/-- The result is the reference's last stage of the same sixteen arrays. -/
theorem value (c : Dev nD) : W4 m ρ c (Proc.devRef .tc main_v26)
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [result_eq]
  unfold val_main_v75
  rw [Cert.ReferenceIdeal.RefArrays.msg_arr]
  unfold val_main_v51 val_main_v58 val_main_v65
  rw [Cert.ReferenceIdeal.RefArrays.p_arr, Cert.ReferenceIdeal.RefArrays.q_arr, Cert.ReferenceIdeal.RefArrays.v_arr]
  rfl
end Cert.KernelIdeal.KernelValue

end
-- ==== Proof.lean ====
/-
  The kernel computes what its reference computes, on the extended reals.

  Both programs layer-normalise each node's 64 features, run the normalised row through two two-layer perceptrons
  (`p` and `q`) and scale the node's three vectors per channel; gather `p` at each edge's receiver and `q` and the
  scaled vectors at its sender; form, per edge, direction `i` and channel `c`, the message
  `p · ∑ⱼ M i j · (q · vⱼ)` with `M` the edge's 3×3 matrix; and add every message into its receiver's row.
  The kernel does the per-node part in blocks of 1000 nodes and the per-edge part in blocks of 1280 edges, with its
  matrix products on narrowed operands, its `silu` through `logistic` and its three-term contraction written out;
  the reference works on whole arrays with `1 / (1 + exp (-a))` and a contraction over an axis. On the extended reals
  a change of format is the identity, `logistic a` is by definition `1 / (1 + exp (-a))`, a matrix product into a zero
  accumulator and a contraction are the same sum, and a sum of three terms is `(a + b) + c`: no law that needs
  finiteness is used, so the precondition is never opened.

  The three frames are the two generated frame certificates and the reference's generated run with its result dropped;
  the kernel's idealization applied no rewrite, so there is nothing to preserve; and the two runs end with the result
  buffer at ONE function of the argument arrays (`Cert.KernelIdeal.KernelValue.value` for the kernel, the generated
  read of the reference's run for the reference), the arguments agreeing by hypothesis.
-/
import proofs.«118783_j62440234549687_1_alg».proof.Defs
import proofs.«118783_j62440234549687_1_alg».proof.Proof.Gen.Kernel
import proofs.«118783_j62440234549687_1_alg».proof.Proof.Gen.Kernel.Skeleton
import proofs.«118783_j62440234549687_1_alg».proof.Proof.Gen.Kernel.Launch
import proofs.«118783_j62440234549687_1_alg».proof.Proof.Gen.Kernel.Points
import proofs.«118783_j62440234549687_1_alg».proof.Proof.Gen.Kernel.Frame
import proofs.«118783_j62440234549687_1_alg».proof.Proof.Gen.KernelIdeal
import proofs.«118783_j62440234549687_1_alg».proof.Proof.Gen.KernelIdeal.Skeleton
import proofs.«118783_j62440234549687_1_alg».proof.Proof.Gen.KernelIdeal.Launch
import proofs.«118783_j62440234549687_1_alg».proof.Proof.Gen.KernelIdeal.Points
import proofs.«118783_j62440234549687_1_alg».proof.Proof.Gen.KernelIdeal.Frame
import proofs.«118783_j62440234549687_1_alg».proof.Proof.Gen.ReferenceIdeal
import proofs.«118783_j62440234549687_1_alg».proof.Proof.Gen.ReferenceIdeal.Run
import proofs.«118783_j62440234549687_1_alg».proof.Proof.Gen.ReferenceIdeal.Read
import proofs.«118783_j62440234549687_1_alg».proof.Proof.Gen.Pre_finite_inputs
import proofs.«118783_j62440234549687_1_alg».proof.Proof.KernelRun
import proofs.«118783_j62440234549687_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization recorded no rewrite: nothing to preserve. -/
theorem preserves : Cert.preserves_Kernel_KernelIdeal := trivial

/-- Both runs end with the result at the reference's last stage of the kernel's argument arrays: the kernel's by its
    value theorem, the reference's by the generated read of its run, its arguments being the kernel's. -/
theorem algebraic : Cert.algebraic_KernelIdeal_ReferenceIdeal := by
  intro m ρ m' ρ' _ hagree
  refine ⟨fun c => Cert.ReferenceIdeal.Read.val_main_v75 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.KernelValue.value m ρ c), (h c).2⟩) (Cert.KernelIdeal.GenP.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v75_eq, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
